-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S16x64 : Shape := ⟨2, ![16, 64]⟩
abbrev S16 : Shape := ⟨1, ![16]⟩
abbrev S32x16 : Shape := ⟨2, ![32, 16]⟩
abbrev S32 : Shape := ⟨1, ![32]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S16x64 : S_.BroadcastsInDim S16x64 (![] : Fin 0 → Fin S16x64.rank)
  reducesTo_S16x64_S_d0_1 : S16x64.ReducesTo [0, 1] S_
  bcast_S_S16 : S_.BroadcastsInDim S16 (![] : Fin 0 → Fin S16.rank)
  reducesTo_S16_S_d0 : S16.ReducesTo [0] S_
  bcast_S_S32x16 : S_.BroadcastsInDim S32x16 (![] : Fin 0 → Fin S32x16.rank)
  reducesTo_S32x16_S_d0_1 : S32x16.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32x16 .f32) (main_arg6 : FVec F S32 .f32) (main_arg7 : FVec F S32x16 .f32) (main_v13 : IVec S_ 1) (main_v16 : IVec S16x64 1) : IVec S_ 1 :=
  let main_c_5 : IVec S_ 1 := constantI S_ 1 1#1
  let main_v17 : IVec S_ 1 := (fun x v => Host.reduce IntOp.andi x v reducesTo_S16x64_S_d0_1 h_S_) main_v16 main_c_5
  let main_v18 : IVec S_ 1 := andi main_v13 main_v17
  let main_v19 : FVec F S32x16 .f32 := Host.absf main_arg5
  let main_cst_6 : FVec F S_ .f32 := constant S_ .f32 0x7F800000#32
  let main_v20 : FVec F S32x16 .f32 := broadcastInDim S32x16 ![] bcast_S_S32x16 main_cst_6
  let main_v21 : IVec S32x16 1 := cmpf .olt main_v19 main_v20
  let main_c_7 : IVec S_ 1 := constantI S_ 1 1#1
  let main_v22 : IVec S_ 1 := (fun x v => Host.reduce IntOp.andi x v reducesTo_S32x16_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x16 .f32 := Host.absf main_arg7
  let main_cst_10 : FVec F S_ .f32 := constant S_ .f32 0x7F800000#32
  let main_v30 : FVec F S32x16 .f32 := broadcastInDim S32x16 ![] bcast_S_S32x16 main_cst_10
  let main_v31 : IVec S32x16 1 := cmpf .olt main_v29 main_v30
  let main_c_11 : IVec S_ 1 := constantI S_ 1 1#1
  let main_v32 : IVec S_ 1 := (fun x v => Host.reduce IntOp.andi x v reducesTo_S32x16_S_d0_1 h_S_) main_v31 main_c_11
  let main_v33 : IVec S_ 1 := andi main_v28 main_v32
  main_v33

def fn {F : FTy → Type} [FloatOps F] (main_arg0 : FVec F S100000x64 .f32) (main_arg1 : IVec S2x1600000 32) (main_arg2 : FVec F S16x64 .f32) (main_arg3 : FVec F S16 .f32) (main_arg4 : FVec F S16x64 .f32) (main_arg5 : FVec F S32x16 .f32) (main_arg6 : FVec F S32 .f32) (main_arg7 : FVec F S32x16 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S16x64 .f32 := Host.absf main_arg2
  let main_cst_0 : FVec F S_ .f32 := constant S_ .f32 0x7F800000#32
  let main_v5 : FVec F S16x64 .f32 := broadcastInDim S16x64 ![] bcast_S_S16x64 main_cst_0
  let main_v6 : IVec S16x64 1 := cmpf .olt main_v4 main_v5
  let main_c_1 : IVec S_ 1 := constantI S_ 1 1#1
  let main_v7 : IVec S_ 1 := (fun x v => Host.reduce IntOp.andi x v reducesTo_S16x64_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x64 .f32 := Host.absf main_arg4
  let main_cst_4 : FVec F S_ .f32 := constant S_ .f32 0x7F800000#32
  let main_v15 : FVec F S16x64 .f32 := broadcastInDim S16x64 ![] bcast_S_S16x64 main_cst_4
  let main_v16 : IVec S16x64 1 := cmpf .olt main_v14 main_v15
  fn_part1 (F := F) main_arg5 main_arg6 main_arg7 main_v13 main_v16
-- ==== Kernel.lean ====
abbrev S100000x64 : Shape := ⟨2, ![100000, 64]⟩
abbrev S2x1600000 : Shape := ⟨2, ![2, 1600000]⟩
abbrev S16x64 : Shape := ⟨2, ![16, 64]⟩
abbrev S16 : Shape := ⟨1, ![16]⟩
abbrev S32x16 : Shape := ⟨2, ![32, 16]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S64x16 : Shape := ⟨2, ![64, 16]⟩
abbrev S1x16 : Shape := ⟨2, ![1, 16]⟩
abbrev S100000x16 : Shape := ⟨2, ![100000, 16]⟩
abbrev S5000x64 : Shape := ⟨2, ![5000, 64]⟩
abbrev S5000x1 : Shape := ⟨2, ![5000, 1]⟩
abbrev S5000x16 : Shape := ⟨2, ![5000, 16]⟩
abbrev S5000 : Shape := ⟨1, ![5000]⟩
abbrev S1600000x16 : Shape := ⟨2, ![1600000, 16]⟩
abbrev S16x32 : Shape := ⟨2, ![16, 32]⟩
abbrev S1x32 : Shape := ⟨2, ![1, 32]⟩
abbrev S100000x32 : Shape := ⟨2, ![100000, 32]⟩
abbrev S5000x32 : Shape := ⟨2, ![5000, 32]⟩

abbrev nBuf : Space → Nat
  | .hbm => 60
  | .vmem => 22
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S16x64, .f32⟩
  | .hbm, ⟨3, _⟩ => ⟨S16, .f32⟩
  | .hbm, ⟨4, _⟩ => ⟨S16x64, .f32⟩
  | .hbm, ⟨5, _⟩ => ⟨S32x16, .f32⟩
  | .hbm, ⟨6, _⟩ => ⟨S32, .f32⟩
  | .hbm, ⟨7, _⟩ => ⟨S32x16, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x64, .f32⟩
  | .hbm, ⟨21, _⟩ => ⟨S_, .f32⟩
  | .hbm, ⟨22, _⟩ => ⟨S100000x64, .f32⟩
  | .hbm, ⟨23, _⟩ => ⟨S1600000x1, .i32⟩
  | .hbm, ⟨24, _⟩ => ⟨S100000x64, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S100000x1, .f32⟩
  | .hbm, ⟨32, _⟩ => ⟨S64x16, .f32⟩
  | .hbm, ⟨33, _⟩ => ⟨S64x16, .f32⟩
  | .hbm, ⟨34, _⟩ => ⟨S1x16, .f32⟩
  | .hbm, ⟨35, _⟩ => ⟨S100000x16, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x16, .f32⟩
  | .hbm, ⟨45, _⟩ => ⟨S_, .f32⟩
  | .hbm, ⟨46, _⟩ => ⟨S100000x16, .f32⟩
  | .hbm, ⟨47, _⟩ => ⟨S1600000x1, .i32⟩
  | .hbm, ⟨48, _⟩ => ⟨S100000x16, .f32⟩
  | .hbm, ⟨49, _⟩ => ⟨S_, .f32⟩
  | .hbm, ⟨50, _⟩ => ⟨S1600000, .f32⟩
  | .hbm, ⟨51, _⟩ => ⟨S_, .f32⟩
  | .hbm, ⟨52, _⟩ => ⟨S100000, .f32⟩
  | .hbm, ⟨53, _⟩ => ⟨S1600000x1, .i32⟩
  | .hbm, ⟨54, _⟩ => ⟨S100000, .f32⟩
  | .hbm, ⟨55, _⟩ => ⟨S100000x1, .f32⟩
  | .hbm, ⟨56, _⟩ => ⟨S16x32, .f32⟩
  | .hbm, ⟨57, _⟩ => ⟨S16x32, .f32⟩
  | .hbm, ⟨58, _⟩ => ⟨S1x32, .f32⟩
  | .hbm, ⟨59, _⟩ => ⟨S100000x32, .f32⟩
  | .local _ .vmem, ⟨0, _⟩ => ⟨S5000x64, .f32⟩
  | .local _ .vmem, ⟨1, _⟩ => ⟨S5000x64, .f32⟩
  | .local _ .vmem, ⟨2, _⟩ => ⟨S5000x1, .f32⟩
  | .local _ .vmem, ⟨3, _⟩ => ⟨S5000x1, .f32⟩
  | .local _ .vmem, ⟨4, _⟩ => ⟨S5000x64, .f32⟩
  | .local _ .vmem, ⟨5, _⟩ => ⟨S5000x64, .f32⟩
  | .local _ .vmem, ⟨6, _⟩ => ⟨S64x16, .f32⟩
  | .local _ .vmem, ⟨7, _⟩ => ⟨S1x16, .f32⟩
  | .local _ .vmem, ⟨8, _⟩ => ⟨S64x16, .f32⟩
  | .local _ .vmem, ⟨9, _⟩ => ⟨S5000x16, .f32⟩
  | .local _ .vmem, ⟨10, _⟩ => ⟨S5000x16, .f32⟩
  | .local _ .vmem, ⟨11, _⟩ => ⟨S5000x16, .f32⟩
  | .local _ .vmem, ⟨12, _⟩ => ⟨S5000x16, .f32⟩
  | .local _ .vmem, ⟨13, _⟩ => ⟨S5000x1, .f32⟩
  | .local _ .vmem, ⟨14, _⟩ => ⟨S5000x1, .f32⟩
  | .local _ .vmem, ⟨15, _⟩ => ⟨S5000x16, .f32⟩
  | .local _ .vmem, ⟨16, _⟩ => ⟨S5000x16, .f32⟩
  | .local _ .vmem, ⟨17, _⟩ => ⟨S16x32, .f32⟩
  | .local _ .vmem, ⟨18, _⟩ => ⟨S1x32, .f32⟩
  | .local _ .vmem, ⟨19, _⟩ => ⟨S16x32, .f32⟩
  | .local _ .vmem, ⟨20, _⟩ => ⟨S5000x32, .f32⟩
  | .local _ .vmem, ⟨21, _⟩ => ⟨S5000x32, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_3 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_6 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S16x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S16x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x32 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  transposes_S16x64_S64x16_1_0 : S16x64.Transposes [1, 0] S64x16
  shapeCasts_S16_S1x16 : S16.ShapeCasts S1x16
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S64x16_S64x16_0_0 : ∀ a, (![0, 0] : Fin 2 → Nat) a + S64x16.size a ≤ S64x16.size a
  h_S64x16 : 0 < S64x16.numel
  shapeCasts_S64x16_S64x16 : S64x16.ShapeCasts S64x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  reduces_S5000x16_S5000 : S5000x16.Reduces [1] S5000
  shapeCasts_S5000_S5000x1 : S5000.ShapeCasts S5000x1
  broadcasts_S5000x1_S5000x16 : S5000x1.Broadcasts S5000x16
  inb_S5000x16_S5000x16_0_0 : ∀ a, (![0, 0] : Fin 2 → Nat) a + S5000x16.size a ≤ S5000x16.size a
  h_S5000x16 : 0 < S5000x16.numel
  bcast_S_S100000x16 : S_.BroadcastsInDim S100000x16 (![] : Fin 0 → Fin S100000x16.rank)
  transposes_S32x16_S16x32_1_0 : S32x16.Transposes [1, 0] S16x32
  shapeCasts_S32_S1x32 : S32.ShapeCasts S1x32
  shapeCasts_S5000x16_S5000x16 : S5000x16.ShapeCasts S5000x16
  inb_S16x32_S16x32_0_0 : ∀ a, (![0, 0] : Fin 2 → Nat) a + S16x32.size a ≤ S16x32.size a
  h_S16x32 : 0 < S16x32.numel
  shapeCasts_S16x32_S16x32 : S16x32.ShapeCasts S16x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  reduces_S5000x32_S5000 : S5000x32.Reduces [1] S5000
  broadcasts_S5000x1_S5000x32 : S5000x1.Broadcasts S5000x32
  inb_S5000x32_S5000x32_0_0 : ∀ a, (![0, 0] : Fin 2 → Nat) a + S5000x32.size a ≤ S5000x32.size a
  h_S5000x32 : 0 < S5000x32.numel
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S5000x64_S64x16_S5000x16_1_0_0_1_n_n_wf : DotDims.WF S5000x64 S64x16 S5000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  dot_S5000x16_S16x32_S5000x32_1_0_0_1_n_n_wf : DotDims.WF S5000x16 S16x32 S5000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x16.size a ≤ S64x16.size a
  hwx0_3 : ∀ i : grid0.Coords, EltTy.bits .f32 = 32 ∨ (Rect.block (s := S64x16) S64x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x16.size a ≤ S1x16.size a
  hwx0_4 : ∀ i : grid0.Coords, EltTy.bits .f32 = 32 ∨ (Rect.block (s := S1x16) S1x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x16.size a ≤ S64x16.size a
  hwx0_5 : ∀ i : grid0.Coords, EltTy.bits .f32 = 32 ∨ (Rect.block (s := S64x16) S64x16.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x16.size a ≤ S100000x16.size a
  hwx0_6 : ∀ i : grid0.Coords, EltTy.bits .f32 = 32 ∨ (Rect.block (s := S100000x16) S5000x16.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x16.size a ≤ S100000x16.size a
  hwx1_2 : ∀ i : grid1.Coords, EltTy.bits .f32 = 32 ∨ (Rect.block (s := S100000x16) S5000x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x32.size a ≤ S16x32.size a
  hwx1_3 : ∀ i : grid1.Coords, EltTy.bits .f32 = 32 ∨ (Rect.block (s := S16x32) S16x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x32.size a ≤ S1x32.size a
  hwx1_4 : ∀ i : grid1.Coords, EltTy.bits .f32 = 32 ∨ (Rect.block (s := S1x32) S1x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S16x32.size a ≤ S16x32.size a
  hwx1_5 : ∀ i : grid1.Coords, EltTy.bits .f32 = 32 ∨ (Rect.block (s := S16x32) S16x32.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x32.size a ≤ S100000x32.size a
  hwx1_6 : ∀ i : grid1.Coords, EltTy.bits .f32 = 32 ∨ (Rect.block (s := S100000x32) S5000x32.size (cc1_transform_6 i) (hinb1_6 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x64_S64x16_S5000x16_1_0_0_1_n_n : DotDims S5000x64 S64x16 S5000x16 where
  lhsContracting := [1]
  rhsContracting := [0]
  lhsNonContracting := [0]
  rhsNonContracting := [1]
  lhsBatch := []
  rhsBatch := []
  wf := dot_S5000x64_S64x16_S5000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf
def dot_S5000x16_S16x32_S5000x32_1_0_0_1_n_n : DotDims S5000x16 S16x32 S5000x32 where
  lhsContracting := [1]
  rhsContracting := [0]
  lhsNonContracting := [0]
  rhsNonContracting := [1]
  lhsBatch := []
  rhsBatch := []
  wf := dot_S5000x16_S16x32_S5000x32_1_0_0_1_n_n_wf

abbrev win0_0 : Pipeline.Window sig grid0 :=
  Pipeline.Window.ofSpec (Memref.whole main_v13) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S64x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S64x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S5000x16.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v32) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22) S5000x16.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v38) S16x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S1x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S16x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v41) S5000x32.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S16x64 : Shape := ⟨2, ![16, 64]⟩
abbrev S16 : Shape := ⟨1, ![16]⟩
abbrev S32x16 : Shape := ⟨2, ![32, 16]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S64x16 : Shape := ⟨2, ![64, 16]⟩
abbrev S100000x16 : Shape := ⟨2, ![100000, 16]⟩
abbrev S1x16 : Shape := ⟨2, ![1, 16]⟩
abbrev S1600000x16 : Shape := ⟨2, ![1600000, 16]⟩
abbrev S16x32 : Shape := ⟨2, ![16, 32]⟩
abbrev S100000x32 : Shape := ⟨2, ![100000, 32]⟩
abbrev S1x32 : Shape := ⟨2, ![1, 32]⟩

abbrev nBuf : Space → Nat
  | .hbm => 101
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S16x64, .f32⟩
  | .hbm, ⟨3, _⟩ => ⟨S16, .f32⟩
  | .hbm, ⟨4, _⟩ => ⟨S16x64, .f32⟩
  | .hbm, ⟨5, _⟩ => ⟨S32x16, .f32⟩
  | .hbm, ⟨6, _⟩ => ⟨S32, .f32⟩
  | .hbm, ⟨7, _⟩ => ⟨S32x16, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x64, .f32⟩
  | .hbm, ⟨21, _⟩ => ⟨S_, .f32⟩
  | .hbm, ⟨22, _⟩ => ⟨S100000x64, .f32⟩
  | .hbm, ⟨23, _⟩ => ⟨S1600000x1, .i32⟩
  | .hbm, ⟨24, _⟩ => ⟨S100000x64, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x64, .f32⟩
  | .hbm, ⟨36, _⟩ => ⟨S100000x64, .f32⟩
  | .hbm, ⟨37, _⟩ => ⟨S64x16, .f32⟩
  | .hbm, ⟨38, _⟩ => ⟨S100000x16, .f32⟩
  | .hbm, ⟨39, _⟩ => ⟨S1x16, .f32⟩
  | .hbm, ⟨40, _⟩ => ⟨S100000x16, .f32⟩
  | .hbm, ⟨41, _⟩ => ⟨S100000x16, .f32⟩
  | .hbm, ⟨42, _⟩ => ⟨S64x16, .f32⟩
  | .hbm, ⟨43, _⟩ => ⟨S100000x16, .f32⟩
  | .hbm, ⟨44, _⟩ => ⟨S100000x16, .f32⟩
  | .hbm, ⟨45, _⟩ => ⟨S100000x16, .f32⟩
  | .hbm, ⟨46, _⟩ => ⟨S_, .f32⟩
  | .hbm, ⟨47, _⟩ => ⟨S100000, .f32⟩
  | .hbm, ⟨48, _⟩ => ⟨S100000x1, .f32⟩
  | .hbm, ⟨49, _⟩ => ⟨S100000x1, .f32⟩
  | .hbm, ⟨50, _⟩ => ⟨S_, .f32⟩
  | .hbm, ⟨51, _⟩ => ⟨S100000x1, .f32⟩
  | .hbm, ⟨52, _⟩ => ⟨S100000x1, .f32⟩
  | .hbm, ⟨53, _⟩ => ⟨S100000x16, .f32⟩
  | .hbm, ⟨54, _⟩ => ⟨S100000x16, .f32⟩
  | .hbm, ⟨55, _⟩ => ⟨S_, .f32⟩
  | .hbm, ⟨56, _⟩ => ⟨S100000x16, .f32⟩
  | .hbm, ⟨57, _⟩ => ⟨S100000x16, .f32⟩
  | .hbm, ⟨58, _⟩ => ⟨S_, .i32⟩
  | .hbm, ⟨59, _⟩ => ⟨S1600000, .i32⟩
  | .hbm, ⟨60, _⟩ => ⟨S1600000, .i1⟩
  | .hbm, ⟨61, _⟩ => ⟨S_, .i32⟩
  | .hbm, ⟨62, _⟩ => ⟨S1600000, .i32⟩
  | .hbm, ⟨63, _⟩ => ⟨S1600000, .i32⟩
  | .hbm, ⟨64, _⟩ => ⟨S1600000, .i32⟩
  | .hbm, ⟨65, _⟩ => ⟨S1600000x1, .i32⟩
  | .hbm, ⟨66, _⟩ => ⟨S1600000x16, .f32⟩
  | .hbm, ⟨67, _⟩ => ⟨S_, .f32⟩
  | .hbm, ⟨68, _⟩ => ⟨S100000x16, .f32⟩
  | .hbm, ⟨69, _⟩ => ⟨S1600000x1, .i32⟩
  | .hbm, ⟨70, _⟩ => ⟨S100000x16, .f32⟩
  | .hbm, ⟨71, _⟩ => ⟨S_, .f32⟩
  | .hbm, ⟨72, _⟩ => ⟨S1600000, .f32⟩
  | .hbm, ⟨73, _⟩ => ⟨S_, .f32⟩
  | .hbm, ⟨74, _⟩ => ⟨S100000, .f32⟩
  | .hbm, ⟨75, _⟩ => ⟨S1600000x1, .i32⟩
  | .hbm, ⟨76, _⟩ => ⟨S100000, .f32⟩
  | .hbm, ⟨77, _⟩ => ⟨S_, .f32⟩
  | .hbm, ⟨78, _⟩ => ⟨S100000, .f32⟩
  | .hbm, ⟨79, _⟩ => ⟨S100000, .f32⟩
  | .hbm, ⟨80, _⟩ => ⟨S100000x1, .f32⟩
  | .hbm, ⟨81, _⟩ => ⟨S100000x16, .f32⟩
  | .hbm, ⟨82, _⟩ => ⟨S100000x16, .f32⟩
  | .hbm, ⟨83, _⟩ => ⟨S16x32, .f32⟩
  | .hbm, ⟨84, _⟩ => ⟨S100000x32, .f32⟩
  | .hbm, ⟨85, _⟩ => ⟨S1x32, .f32⟩
  | .hbm, ⟨86, _⟩ => ⟨S100000x32, .f32⟩
  | .hbm, ⟨87, _⟩ => ⟨S100000x32, .f32⟩
  | .hbm, ⟨88, _⟩ => ⟨S16x32, .f32⟩
  | .hbm, ⟨89, _⟩ => ⟨S100000x32, .f32⟩
  | .hbm, ⟨90, _⟩ => ⟨S100000x32, .f32⟩
  | .hbm, ⟨91, _⟩ => ⟨S100000x32, .f32⟩
  | .hbm, ⟨92, _⟩ => ⟨S_, .f32⟩
  | .hbm, ⟨93, _⟩ => ⟨S100000, .f32⟩
  | .hbm, ⟨94, _⟩ => ⟨S100000x1, .f32⟩
  | .hbm, ⟨95, _⟩ => ⟨S100000x1, .f32⟩
  | .hbm, ⟨96, _⟩ => ⟨S_, .f32⟩
  | .hbm, ⟨97, _⟩ => ⟨S100000x1, .f32⟩
  | .hbm, ⟨98, _⟩ => ⟨S100000x1, .f32⟩
  | .hbm, ⟨99, _⟩ => ⟨S100000x32, .f32⟩
  | .hbm, ⟨100, _⟩ => ⟨S100000x32, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_v0 : Ref sig .tc := ⟨.hbm, 45, rfl⟩
abbrev main_call0_cst : Ref sig .tc := ⟨.hbm, 46, rfl⟩
abbrev main_call0_v1 : Ref sig .tc := ⟨.hbm, 47, rfl⟩
abbrev main_call0_v2 : Ref sig .tc := ⟨.hbm, 48, rfl⟩
abbrev main_v31 : Ref sig .tc := ⟨.hbm, 49, rfl⟩
abbrev main_cst_4 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_call1_cst : Ref sig .tc := ⟨.hbm, 55, rfl⟩
abbrev main_call1_v0 : Ref sig .tc := ⟨.hbm, 56, rfl⟩
abbrev main_v36 : Ref sig .tc := ⟨.hbm, 57, rfl⟩
abbrev main_c_5 : Ref sig .tc := ⟨.hbm, 58, rfl⟩
abbrev main_v37 : Ref sig .tc := ⟨.hbm, 59, rfl⟩
abbrev main_v38 : Ref sig .tc := ⟨.hbm, 60, rfl⟩
abbrev main_c_6 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_7 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_8 : Ref sig .tc := ⟨.hbm, 71, rfl⟩
abbrev main_v47 : Ref sig .tc := ⟨.hbm, 72, rfl⟩
abbrev main_cst_9 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_10 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_call2_v0 : Ref sig .tc := ⟨.hbm, 91, rfl⟩
abbrev main_call2_cst : Ref sig .tc := ⟨.hbm, 92, rfl⟩
abbrev main_call2_v1 : Ref sig .tc := ⟨.hbm, 93, rfl⟩
abbrev main_call2_v2 : Ref sig .tc := ⟨.hbm, 94, rfl⟩
abbrev main_v64 : Ref sig .tc := ⟨.hbm, 95, rfl⟩
abbrev main_cst_11 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S16x64_S64x16_1_0 : S16x64.Transposes [1, 0] S64x16
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S100000_d1 : S100000x16.ReducesTo [1] S100000
  h_S_ : 0 < S_.numel
  bcast_S_S100000x1 : S_.BroadcastsInDim S100000x1 (![] : Fin 0 → Fin S100000x1.rank)
  bcast_S100000x1_S100000x16_0_1 : S100000x1.BroadcastsInDim S100000x16 (![0, 1] : Fin 2 → Fin S100000x16.rank)
  bcast_S_S100000x16 : S_.BroadcastsInDim S100000x16 (![] : Fin 0 → Fin S100000x16.rank)
  transposes_S32x16_S16x32_1_0 : S32x16.Transposes [1, 0] S16x32
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  reducesTo_S100000x32_S100000_d1 : S100000x32.ReducesTo [1] S100000
  bcast_S100000x1_S100000x32_0_1 : S100000x1.BroadcastsInDim S100000x32 (![0, 1] : Fin 2 → Fin S100000x32.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x16_S100000x16_1_0_0_1_n_n_wf : DotDims.WF S100000x64 S64x16 S100000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  dot_S100000x16_S16x32_S100000x32_1_0_0_1_n_n_wf : DotDims.WF S100000x16 S16x32 S100000x32 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf
def dot_S100000x16_S16x32_S100000x32_1_0_0_1_n_n : DotDims S100000x16 S16x32 S100000x32 where
  lhsContracting := [1]
  rhsContracting := [0]
  lhsNonContracting := [0]
  rhsNonContracting := [1]
  lhsBatch := []
  rhsBatch := []
  wf := dot_S100000x16_S16x32_S100000x32_1_0_0_1_n_n_wf

class Facts : Prop extends Facts₀ where

variable [Facts]
-- ==== Proof.KernelLaunch.lean ====
/-
  The kernel program's run with its result array named.

  The program is four stretches in order: host operations, the first launch, host operations, the second launch. The
  buffer contents after each stretch are a fold from the launch memory: a stretch of host operations applies them, a
  launch replaces its result array by what its blocks' write-backs leave and keeps every other buffer. Every weakly
  fair execution ends with each unscoped buffer at the last fold's contents; read at the result buffer that is the
  statement below, and at the eight argument buffers it is the launch memory.
-/
import proofs.«166755_j34772055228551_2_alg».proof.Proof.Gen.KernelIdeal.Frame

set_option maxRecDepth 16384

noncomputable section

namespace Cert.KernelIdeal.Launched

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last fold's contents and the
    argument arrays as launched. -/
theorem run_named : θ_run defs (onTc (τ := τ) (main (F := F))) ⟨m, fun _ => 0, ρ⟩ (fun r => ∀ c : Dev nD,
      r.2.mem ((c.tc : Thread nD τ).loc main_v41) = W4 m ρ c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v41 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Launched

end
-- ==== Proof.LibAffine.lean ====
/-
  General lemmas: a dense layer over the extended reals, as one function of its operands read at an index.

  A dense layer takes a matrix `x` of shape [a, k], a weight `w` of shape [k, n] and a bias row `b` of shape [1, n],
  and returns the [a, n] matrix whose entry (p, j) is the sum over q of x (p, q) · w (q, j), plus b (0, j). The layer
  with a second product, on a second matrix `h` and weight `wr`, adds to that the sum over q of h (p, q) · wr (q, j).

  * `affine`, `affine2`: the two layers as functions of their operands, with `affineAt`, `affine2At` their entries;
  * `hostDot_ix2`: the host's plain product [a, k] × [k, n] at (p, j) is that sum of products;
  * `hostAffine_eq`, `hostAffine2_eq`: the host's product, plus the bias row laid along every row (a broadcast along
    both axes), plus for the second layer the second product, is the layer;
  * `coreAffine_eq`, `coreAffine2_eq`: a matrix-unit product into a zero accumulator, plus the bias row broadcast over
    the rows, plus for the second layer a second such product, is the layer;
  * `affineAt_congr`, `affine2At_congr`: the entry (p, j) only reads row p of the matrices, column j of the weights and
    entry j of the bias, so operands that agree there give the same entry (a block of rows of the layer is the layer
    of the block of rows).
  Nothing here mentions a program: the extents are variables and the dimension records are hypotheses.
-/
import Idealize.ShloMosaic.Lib.ValueLayout
import Idealize.ShloMosaic.Lib.ValueIdx
import Idealize.ShloMosaic.Lib.Pipeline.Value
import Idealize.ShloMosaic.PureOps.Ideal.Laws

noncomputable section

namespace Cert.LibAffine

open Idealize.ShloMosaic Idealize.ShloMosaic.ValueIdx

variable {a k n : ℕ}

/-- Entry (p, j) of `x · w + b`: the sum over q of x (p, q) · w (q, j), plus the bias row's entry j. -/
def affineAt (x : FVec Ideal ⟨2, ![a, k]⟩ .f32) (w : FVec Ideal ⟨2, ![k, n]⟩ .f32) (b : FVec Ideal ⟨2, ![1, n]⟩ .f32)
    (p : Fin a) (j : Fin n) : Ideal .f32 :=
  (∑ q : Fin k, x (ix2 p q) * w (ix2 q j)) + b (ix2 (0 : Fin 1) j)

/-- The dense layer `x · w + b` as an [a, n] array. -/
def affine (x : FVec Ideal ⟨2, ![a, k]⟩ .f32) (w : FVec Ideal ⟨2, ![k, n]⟩ .f32) (b : FVec Ideal ⟨2, ![1, n]⟩ .f32) :
    FVec Ideal ⟨2, ![a, n]⟩ .f32 :=
  fun i => affineAt x w b (i 0) (i 1)

theorem affine_ix2 (x : FVec Ideal ⟨2, ![a, k]⟩ .f32) (w : FVec Ideal ⟨2, ![k, n]⟩ .f32) (b : FVec Ideal ⟨2, ![1, n]⟩ .f32)
    (p : Fin a) (j : Fin n) : affine x w b (ix2 p j) = affineAt x w b p j := rfl

/-- Entry (p, j) of `s · wl + b + h · wr`. -/
def affine2At (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) (p : Fin a) (j : Fin n) : Ideal .f32 :=
  (∑ q : Fin k, s (ix2 p q) * wl (ix2 q j)) + b (ix2 (0 : Fin 1) j) + ∑ q : Fin k, h (ix2 p q) * wr (ix2 q j)

/-- The two-product layer `s · wl + b + h · wr` as an [a, n] array. -/
def affine2 (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) : FVec Ideal ⟨2, ![a, n]⟩ .f32 :=
  fun i => affine2At s h wl b wr (i 0) (i 1)

theorem affine2_ix2 (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) (p : Fin a) (j : Fin n) : affine2 s h wl b wr (ix2 p j) = affine2At s h wl b wr p j := rfl

/-- Entry (p, j) reads only row p of the matrix, column j of the weight and entry j of the bias. -/
theorem affineAt_congr {a' : ℕ} (X : FVec Ideal ⟨2, ![a, k]⟩ .f32) (W : FVec Ideal ⟨2, ![k, n]⟩ .f32) (B : FVec Ideal ⟨2, ![1, n]⟩ .f32)
    (x : FVec Ideal ⟨2, ![a', k]⟩ .f32) (w : FVec Ideal ⟨2, ![k, n]⟩ .f32) (b : FVec Ideal ⟨2, ![1, n]⟩ .f32)
    (p : Fin a') (p' : Fin a) (j : Fin n)
    (hx : ∀ q : Fin k, x (ix2 p q) = X (ix2 p' q)) (hw : ∀ q : Fin k, w (ix2 q j) = W (ix2 q j))
    (hb : b (ix2 (0 : Fin 1) j) = B (ix2 (0 : Fin 1) j)) :
    affineAt x w b p j = affineAt X W B p' j := by
  unfold affineAt
  rw [hb]
  exact congrArg (· + B (ix2 (0 : Fin 1) j)) (Finset.sum_congr rfl fun q _ => by rw [hx q, hw q])

/-- The same for the two-product layer. -/
theorem affine2At_congr {a' : ℕ} (S H : FVec Ideal ⟨2, ![a, k]⟩ .f32) (WL : FVec Ideal ⟨2, ![k, n]⟩ .f32) (B : FVec Ideal ⟨2, ![1, n]⟩ .f32)
    (WR : FVec Ideal ⟨2, ![k, n]⟩ .f32)
    (s h : FVec Ideal ⟨2, ![a', k]⟩ .f32) (wl : FVec Ideal ⟨2, ![k, n]⟩ .f32) (b : FVec Ideal ⟨2, ![1, n]⟩ .f32)
    (wr : FVec Ideal ⟨2, ![k, n]⟩ .f32) (p : Fin a') (p' : Fin a) (j : Fin n)
    (hs : ∀ q : Fin k, s (ix2 p q) = S (ix2 p' q)) (hh : ∀ q : Fin k, h (ix2 p q) = H (ix2 p' q))
    (hwl : ∀ q : Fin k, wl (ix2 q j) = WL (ix2 q j)) (hb : b (ix2 (0 : Fin 1) j) = B (ix2 (0 : Fin 1) j))
    (hwr : ∀ q : Fin k, wr (ix2 q j) = WR (ix2 q j)) :
    affine2At s h wl b wr p j = affine2At S H WL B WR p' j := by
  unfold affine2At
  rw [hb, Finset.sum_congr rfl fun q _ => (by rw [hs q, hwl q] : s (ix2 p q) * wl (ix2 q j) = S (ix2 p' q) * WL (ix2 q j)),
    Finset.sum_congr rfl fun q _ => (by rw [hh q, hwr q] : h (ix2 p q) * wr (ix2 q j) = H (ix2 p' q) * WR (ix2 q j))]

/-- The host's plain product of an [a, k] by a [k, n] array, whose dimension record contracts the left operand's
    columns against the right operand's rows (the four coordinate facts), is at (p, j) the sum over q of
    L (p, q) · R (q, j). -/
theorem hostDot_ix2 {φ₁ φ₂ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (L : FVec Ideal ⟨2, ![a, k]⟩ φ₁) (R : FVec Ideal ⟨2, ![k, n]⟩ φ₂) (p : Fin a) (j : Fin n) :
    Host.dotGeneral D prec L R (ix2 p j) = ∑ q : Fin k, L (ix2 p q) * R (ix2 q j) := by
  show FloatOps.dotGeneral D prec .single L R (ix2 p j) = _
  rw [Ideal.dotGeneral_apply, ← Equiv.sum_comp (contrEquiv1 D k hr hs).symm]
  refine Finset.sum_congr rfl fun q _ => ?_
  have hq := contrEquiv1_symm_val D k hr hs q
  have el : D.lhsIdx (ix2 p j) ((contrEquiv1 D k hr hs).symm q) = ix2 p q := funext fun ax => Fin.ext (by
    match ax with
    | ⟨0, _⟩ => exact hl0 _ _
    | ⟨1, _⟩ => exact (hl1 _ _).trans hq)
  have er : D.rhsIdx (ix2 p j) ((contrEquiv1 D k hr hs).symm q) = ix2 q j := funext fun ax => Fin.ext (by
    match ax with
    | ⟨0, _⟩ => exact (hr0 _ _).trans hq
    | ⟨1, _⟩ => exact hr1 _ _)
  rw [el, er]

/-- A matrix-unit product of an [a, k] by a [k, n] array into the zero accumulator, under the same four coordinate
    facts, is at (p, j) the sum over q of L (p, q) · R (q, j). -/
theorem coreDot_ix2 {φ₁ φ₂ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (L : FVec Ideal ⟨2, ![a, k]⟩ φ₁) (R : FVec Ideal ⟨2, ![k, n]⟩ φ₂) (p : Fin a) (j : Fin n) :
    FloatOps.matmul D prec L R (constant ⟨2, ![a, n]⟩ .f32 0x00000000#32) (ix2 p j) = ∑ q : Fin k, L (ix2 p q) * R (ix2 q j) := by
  rw [Ideal.matmul_constant_zero_apply, ← Equiv.sum_comp (contrEquiv1 D k hr hs).symm]
  refine Finset.sum_congr rfl fun q _ => ?_
  have hq := contrEquiv1_symm_val D k hr hs q
  have el : D.lhsIdx (ix2 p j) ((contrEquiv1 D k hr hs).symm q) = ix2 p q := funext fun ax => Fin.ext (by
    match ax with
    | ⟨0, _⟩ => exact hl0 _ _
    | ⟨1, _⟩ => exact (hl1 _ _).trans hq)
  have er : D.rhsIdx (ix2 p j) ((contrEquiv1 D k hr hs).symm q) = ix2 q j := funext fun ax => Fin.ext (by
    match ax with
    | ⟨0, _⟩ => exact (hr0 _ _).trans hq
    | ⟨1, _⟩ => exact hr1 _ _)
  rw [el, er]

/-- A row [1, n] laid along every row of an [a, n] array by a broadcast along both axes reads, at (p, j), the row's
    entry j. -/
theorem broadcastInDim_1n_an_apply {α : Type} (hd : (⟨2, ![1, n]⟩ : Shape).BroadcastsInDim ⟨2, ![a, n]⟩ ![0, 1])
    (v : (⟨2, ![1, n]⟩ : Shape).Idx → α) (p : Fin a) (j : Fin n) :
    broadcastInDim ⟨2, ![a, n]⟩ ![0, 1] hd v (ix2 p j) = v (ix2 (0 : Fin 1) j) := by
  refine broadcastInDim_apply ![0, 1] hd v (ix2 p j) (ix2 (0 : Fin 1) j) fun ax => ?_
  match ax with
  | ⟨0, _⟩ =>
    show (0 : ℕ) = if (1 : ℕ) = 1 then 0 else p.val
    rw [if_pos rfl]
  | ⟨1, _⟩ =>
    show j.val = if n = 1 then 0 else j.val
    split
    · have := j.isLt; omega
    · rfl

/-- The host's product plus the bias row laid along every row is the dense layer. -/
theorem hostAffine_eq (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hd : (⟨2, ![1, n]⟩ : Shape).BroadcastsInDim ⟨2, ![a, n]⟩ ![0, 1]) (prec : Option ContractPrecision)
    (x : FVec Ideal ⟨2, ![a, k]⟩ .f32) (w : FVec Ideal ⟨2, ![k, n]⟩ .f32) (b : FVec Ideal ⟨2, ![1, n]⟩ .f32) :
    addf (Host.dotGeneral D prec x w) (broadcastInDim ⟨2, ![a, n]⟩ ![0, 1] hd b) = affine x w b := by
  funext i
  obtain ⟨p, j, rfl⟩ : ∃ (p : Fin a) (j : Fin n), i = ix2 p j := ⟨i 0, i 1, eq_ix2 i⟩
  rw [addf_apply, hostDot_ix2 D hr hs hl0 hl1 hr0 hr1, broadcastInDim_1n_an_apply, affine_ix2]
  rfl

/-- The host's product plus the bias row plus a second product is the two-product layer. -/
theorem hostAffine2_eq (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hd : (⟨2, ![1, n]⟩ : Shape).BroadcastsInDim ⟨2, ![a, n]⟩ ![0, 1]) (prec : Option ContractPrecision)
    (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) :
    addf (addf (Host.dotGeneral D prec s wl) (broadcastInDim ⟨2, ![a, n]⟩ ![0, 1] hd b)) (Host.dotGeneral D prec h wr)
      = affine2 s h wl b wr := by
  funext i
  obtain ⟨p, j, rfl⟩ : ∃ (p : Fin a) (j : Fin n), i = ix2 p j := ⟨i 0, i 1, eq_ix2 i⟩
  rw [addf_apply, addf_apply, hostDot_ix2 D hr hs hl0 hl1 hr0 hr1, hostDot_ix2 D hr hs hl0 hl1 hr0 hr1,
    broadcastInDim_1n_an_apply, affine2_ix2]
  rfl

/-- A matrix-unit product into the zero accumulator plus the bias row broadcast over the rows is the dense layer. -/
theorem coreAffine_eq {φ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hb : (⟨2, ![1, n]⟩ : Shape).Broadcasts ⟨2, ![a, n]⟩) (prec : Option ContractPrecision)
    (x : FVec Ideal ⟨2, ![a, k]⟩ φ) (w : FVec Ideal ⟨2, ![k, n]⟩ φ) (b : FVec Ideal ⟨2, ![1, n]⟩ .f32) :
    addf (FloatOps.matmul D prec x w (constant ⟨2, ![a, n]⟩ .f32 0x00000000#32)) (broadcastTo ⟨2, ![a, n]⟩ b hb)
      = affine (fun i => x i) (fun i => w i) b := by
  funext i
  obtain ⟨p, j, rfl⟩ : ∃ (p : Fin a) (j : Fin n), i = ix2 p j := ⟨i 0, i 1, eq_ix2 i⟩
  rw [addf_apply, coreDot_ix2 D hr hs hl0 hl1 hr0 hr1, broadcastTo_1b_ab_apply, affine_ix2]
  rfl

/-- Two matrix-unit products into zero accumulators, the bias row broadcast over the rows added to the first, is the
    two-product layer. -/
theorem coreAffine2_eq {φ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hb : (⟨2, ![1, n]⟩ : Shape).Broadcasts ⟨2, ![a, n]⟩) (prec : Option ContractPrecision)
    (s h : FVec Ideal ⟨2, ![a, k]⟩ φ) (wl wr : FVec Ideal ⟨2, ![k, n]⟩ φ) (b : FVec Ideal ⟨2, ![1, n]⟩ .f32) :
    addf (addf (FloatOps.matmul D prec s wl (constant ⟨2, ![a, n]⟩ .f32 0x00000000#32)) (broadcastTo ⟨2, ![a, n]⟩ b hb))
        (FloatOps.matmul D prec h wr (constant ⟨2, ![a, n]⟩ .f32 0x00000000#32))
      = affine2 (fun i => s i) (fun i => h i) (fun i => wl i) b (fun i => wr i) := by
  funext i
  obtain ⟨p, j, rfl⟩ : ∃ (p : Fin a) (j : Fin n), i = ix2 p j := ⟨i 0, i 1, eq_ix2 i⟩
  rw [addf_apply, addf_apply, coreDot_ix2 D hr hs hl0 hl1 hr0 hr1, coreDot_ix2 D hr hs hl0 hl1 hr0 hr1,
    broadcastTo_1b_ab_apply, affine2_ix2]
  rfl

end Cert.LibAffine

end
-- ==== Proof.LibDenseOps.lean ====
/-
  General lemmas: the operations of a dense layer read at an index written with `ix1` / `ix2`, at the ideal values.

  * a vector `[a]` cast to a column `[a, 1]`, and a column `[a, 1]` broadcast over `b` columns (the two "keepdims"
    layout steps around a row reduction);
  * a plain matrix product `[a, k] × [k, b]` into a zero accumulator as the sum over `Fin k` of the products;
  * a lane sum and a lane maximum of an `[a, b]` array (the reduction over axis 1) as a sum and a fold over `Fin b`;
  * the host's maximum-reduce over axis 1 as the same fold.
  Nothing here mentions a program: the extents are variables and the dimension records are hypotheses.
-/
import Idealize.ShloMosaic.Lib.ValueLayout
import Idealize.ShloMosaic.Lib.ValueIdx
import Idealize.ShloMosaic.PureOps.Ideal.Laws

noncomputable section

namespace Cert.LibDenseOps

open Idealize.ShloMosaic Idealize.ShloMosaic.ValueIdx

variable {α : Type}

/-- An `[a]` array cast to a column `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A matrix product of an `[a, k]` by a `[k, b]` array into the zero accumulator, whose dimension record contracts
    the left operand's columns against the right operand's rows (the four coordinate facts), is at `(p, j)` the sum over
    `q` of `L (p, q) · R (q, j)`. -/
theorem matmul_zero_ix2 {a k b : ℕ} {φ₁ φ₂ : FTy} (D : DotDims ⟨2, ![a, k]⟩ ⟨2, ![k, b]⟩ ⟨2, ![a, b]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (L : FVec Ideal ⟨2, ![a, k]⟩ φ₁) (R : FVec Ideal ⟨2, ![k, b]⟩ φ₂) (p : Fin a) (j : Fin b) :
    FloatOps.matmul D prec L R (constant ⟨2, ![a, b]⟩ .f32 0x00000000#32) (ix2 p j) = ∑ q : Fin k, L (ix2 p q) * R (ix2 q j) := by
  rw [Ideal.matmul_constant_zero_apply, ← Equiv.sum_comp (contrEquiv1 D k hr hs).symm]
  refine Finset.sum_congr rfl fun q _ => ?_
  have hq := contrEquiv1_symm_val D k hr hs q
  have el : D.lhsIdx (ix2 p j) ((contrEquiv1 D k hr hs).symm q) = ix2 p q := funext fun ax => Fin.ext (by
    match ax with
    | ⟨0, _⟩ => exact hl0 _ _
    | ⟨1, _⟩ => exact (hl1 _ _).trans hq)
  have er : D.rhsIdx (ix2 p j) ((contrEquiv1 D k hr hs).symm q) = ix2 q j := funext fun ax => Fin.ext (by
    match ax with
    | ⟨0, _⟩ => exact (hr0 _ _).trans hq
    | ⟨1, _⟩ => exact hr1 _ _)
  rw [el, er]

/-- The reduced index `p` of an `[a, b]` array with lane `c` put back on axis 1 is `(p, c)`. -/
theorem lift_lane {a b : ℕ} (h : (⟨2, ![a, b]⟩ : Shape).Reduces [1] (⟨1, ![a]⟩ : Shape)) (p : Fin a)
    (c : Fin ((⟨2, ![a, b]⟩ : Shape).size 1)) : h.lift (ix1 p) c = ix2 p (⟨c.val, c.isLt⟩ : Fin b) := by
  funext ax; apply Fin.ext
  fin_cases ax <;> rfl

/-- A lane sum of an `[a, b]` array, read at row `p`: the sum over the row. -/
theorem laneSum_apply {a b : ℕ} (src : FVec Ideal ⟨2, ![a, b]⟩ .f32) (acc : BitVec 32)
    (h : (⟨2, ![a, b]⟩ : Shape).Reduces [1] (⟨1, ![a]⟩ : Shape)) (hφ : FKind.Formats .f32) (hacc : acc = FKind.add.neutral .f32 hφ) (p : Fin a) :
    multiReduction .add [1] ⟨1, ![a]⟩ src acc h hφ hacc (ix1 p) = ∑ c : Fin b, src (ix2 p c) := by
  refine (Ideal.multiReduction_add_single src acc h hφ hacc (ix1 p)).trans ?_
  exact Finset.sum_congr rfl fun c _ => congrArg src (lift_lane h p c)

/-- A lane maximum of an `[a, b]` array, read at row `p`: the fold of `max` over the row from the accumulator's value. -/
theorem laneMax_apply {a b : ℕ} (src : FVec Ideal ⟨2, ![a, b]⟩ .f32) (acc : BitVec 32)
    (h : (⟨2, ![a, b]⟩ : Shape).Reduces [1] (⟨1, ![a]⟩ : Shape)) (hφ : FKind.Formats .f32) (hacc : acc = FKind.maximumf.neutral .f32 hφ) (p : Fin a) :
    multiReduction .maximumf [1] ⟨1, ![a]⟩ src acc h hφ hacc (ix1 p)
      = (Finset.univ : Finset (Fin b)).fold max (Ideal.ofBits .f32 acc) (fun c => src (ix2 p c)) := by
  refine (Ideal.multiReduction_maximumf_single src acc h hφ hacc (ix1 p)).trans ?_
  have hf : (src ∘ h.lift (ix1 p)) = fun c : Fin b => src (ix2 p c) := funext fun c => congrArg src (lift_lane h p c)
  exact congrArg (fun f => Finset.fold max (Ideal.ofBits .f32 acc) f (Finset.univ : Finset (Fin b))) hf

/-- The host's reduce with a maximum body over axis 1 of an `[a, b]` array, read at row `p`: the same fold from the
    initial value. -/
theorem hostRowMax_apply {a b : ℕ} (x : FVec Ideal ⟨2, ![a, b]⟩ .f32) (init : (⟨0, ![]⟩ : Shape).Idx → Ideal .f32)
    (h' : (⟨2, ![a, b]⟩ : Shape).ReducesTo [1] (⟨1, ![a]⟩ : Shape)) (h : (⟨2, ![a, b]⟩ : Shape).Reduces [1] (⟨1, ![a]⟩ : Shape))
    (hu : 0 < (⟨0, ![]⟩ : Shape).numel) (p : Fin a) :
    Host.reduce FloatOps.maximumf x init h' hu (ix1 p)
      = (Finset.univ : Finset (Fin b)).fold max (init (Shape.Idx.first hu)) (fun c => x (ix2 p c)) := by
  rw [Host.reduce_eq_fold_single FloatOps.maximumf x init h' h hu]
  have hf : (x ∘ h.lift (ix1 p)) = fun c : Fin b => x (ix2 p c) := funext fun c => congrArg x (lift_lane h p c)
  exact congrArg (fun f => Finset.fold max (init (Shape.Idx.first hu)) f (Finset.univ : Finset (Fin b))) hf

end Cert.LibDenseOps

end
-- ==== Proof.LibColumnRow.lean ====
/-
  One-column and one-row arrays, read at an index.

  A per-row quantity (one number per row of a matrix: a node's degree factor, a row's maximum, a row's sum) is
  held as a one-column array [a, 1] and used by laying it along every row of an [a, b] matrix; a per-column
  quantity (a bias) is held as a one-row array [1, n]. A vector of length a becomes such a column either by a
  reshape (the row-major position is kept, and position p of the column is entry p) or by a broadcast along
  axis 0; a vector of length n becomes a row by a reshape or by a broadcast along axis 1. The lemmas below read
  each of these at an index (p, c), and say that the reshape and the broadcast of a vector into a column, and into
  a row, are the same array.
-/
import Idealize.ShloMosaic.Lib.Pipeline.Value
import Idealize.ShloMosaic.Lib.ValueIdx
import Idealize.ShloMosaic.Lib.ValueLayout

namespace Cert.LibColumnRow

open Idealize.ShloMosaic Idealize.ShloMosaic.ValueIdx

variable {α : Type}

/-- A column [a, 1] laid along every row of an [a, b] array reads, at (p, c), the column's entry p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector of length a reshaped into a column [a, 1] reads, at (p, u), the vector's entry p. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A vector of length a broadcast along axis 0 into a column [a, 1] reads, at (p, u), the vector's entry p. -/
theorem broadcastInDim_a_a1_apply {a : ℕ} (hd : (⟨1, ![a]⟩ : Shape).BroadcastsInDim ⟨2, ![a, 1]⟩ ![0])
    (x : (⟨1, ![a]⟩ : Shape).Idx → α) (p : Fin a) (u : Fin 1) :
    broadcastInDim ⟨2, ![a, 1]⟩ ![0] hd x (ix2 p u) = x (ix1 p) := by
  refine broadcastInDim_apply ![0] hd x (ix2 p u) (ix1 p) fun ax => ?_
  match ax with
  | ⟨0, _⟩ =>
    show p.val = if a = 1 then 0 else p.val
    split
    · have := p.isLt; omega
    · rfl

/-- The reshape of a vector into a column is its broadcast along axis 0 into that column. -/
theorem shapeCast_col_eq_broadcastInDim {a : ℕ} (x : (⟨1, ![a]⟩ : Shape).Idx → α)
    (h : (⟨1, ![a]⟩ : Shape).ShapeCasts ⟨2, ![a, 1]⟩) (hd : (⟨1, ![a]⟩ : Shape).BroadcastsInDim ⟨2, ![a, 1]⟩ ![0]) :
    shapeCast ⟨2, ![a, 1]⟩ x h = broadcastInDim ⟨2, ![a, 1]⟩ ![0] hd x := by
  funext i
  obtain ⟨p, u, rfl⟩ : ∃ (p : Fin a) (u : Fin 1), i = ix2 p u := ⟨i 0, i 1, eq_ix2 i⟩
  rw [shapeCast_a_a1_apply, broadcastInDim_a_a1_apply]

/-- A vector of length n broadcast along axis 1 into a row [1, n] reads, at (u, c), the vector's entry c. -/
theorem broadcastInDim_n_1n_apply {n : ℕ} (hd : (⟨1, ![n]⟩ : Shape).BroadcastsInDim ⟨2, ![1, n]⟩ ![1])
    (x : (⟨1, ![n]⟩ : Shape).Idx → α) (u : Fin 1) (c : Fin n) :
    broadcastInDim ⟨2, ![1, n]⟩ ![1] hd x (ix2 u c) = x (ix1 c) := by
  refine broadcastInDim_apply ![1] hd x (ix2 u c) (ix1 c) fun ax => ?_
  match ax with
  | ⟨0, _⟩ =>
    show c.val = if n = 1 then 0 else c.val
    split
    · have := c.isLt; omega
    · rfl

/-- The reshape of a vector into a row is its broadcast along axis 1 into that row. -/
theorem shapeCast_row_eq_broadcastInDim {n : ℕ} (x : (⟨1, ![n]⟩ : Shape).Idx → α)
    (h : (⟨1, ![n]⟩ : Shape).ShapeCasts ⟨2, ![1, n]⟩) (hd : (⟨1, ![n]⟩ : Shape).BroadcastsInDim ⟨2, ![1, n]⟩ ![1]) :
    shapeCast ⟨2, ![1, n]⟩ x h = broadcastInDim ⟨2, ![1, n]⟩ ![1] hd x := by
  funext i
  obtain ⟨u, c, rfl⟩ : ∃ (u : Fin 1) (c : Fin n), i = ix2 u c := ⟨i 0, i 1, eq_ix2 i⟩
  rw [shapeCast_a_1a_apply, broadcastInDim_n_1n_apply]

end Cert.LibColumnRow
-- ==== Proof.LibSigmoidLayers.lean ====
/-
  The two layers of a mean-aggregation graph network, as functions of their operands read at an index, on the
  extended reals.

  Both layers start from the two-product dense map  y = s · wl + b + h · wr  of a matrix `s` of aggregated
  neighbour features and the matrix `h` of the nodes' own features (`affine2`). The first layer applies the
  logistic function to every entry of y. The second divides every row of y by the larger of the row's Euclidean
  length and a positive threshold, and then applies the logistic function.

  * `sigLayer`, `unitSigLayer`: the two layers as [a, n] arrays;
  * `coreSig_eq`, `coreUnitSig_eq`: the vector unit's chains — two matrix products into zero accumulators added,
    the bias row broadcast over the rows added LAST, for the second layer the lane sum of squares, its square root
    kept as a column, the maximum with the splat threshold, the column laid along the rows, the quotient — are
    those arrays. The only law used is that (u + v) + w = (u + w) + v on the extended reals, which holds with no
    finiteness condition;
  * `hostSig_eq`, `hostUnitSig_eq`: the host's spelling — product, plus the bias row laid along the rows, plus
    the second product; the logistic function written 1 / (1 + exp (−y)); the row's length as the square root of a
    sum of squares from a zero initial value kept as a column — is the same arrays;
  * `sigAt_congr`, `unitSigAt_congr`: entry (p, j) of either layer reads only row p of the two matrices (and for
    the second layer every column of the weights), so a block of rows of the layer is the layer of the block of rows.
-/
import proofs.«166755_j34772055228551_2_alg».proof.Proof.LibAffine
import proofs.«166755_j34772055228551_2_alg».proof.Proof.LibDenseOps
import proofs.«166755_j34772055228551_2_alg».proof.Proof.LibColumnRow
import Idealize.ShloMosaic.Lib.IdealHost

noncomputable section

namespace Cert.Sage

open Idealize.ShloMosaic Idealize.ShloMosaic.ValueIdx Cert.LibAffine

variable {a k n : ℕ}

/-- Entry (p, j) of the first layer: the logistic function of the dense map's entry. -/
def sigAt (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) (p : Fin a) (j : Fin n) : Ideal .f32 :=
  Ideal.logistic (affine2At s h wl b wr p j)

/-- The first layer as an [a, n] array. -/
def sigLayer (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) : FVec Ideal ⟨2, ![a, n]⟩ .f32 :=
  fun i => sigAt s h wl b wr (i 0) (i 1)

/-- Entry j of a row divided by the larger of the row's Euclidean length and `eps`. -/
def unitAt (y : Fin n → EReal) (eps : EReal) (j : Fin n) : EReal :=
  Ideal.div (y j) (max (Ideal.sqrt (∑ c : Fin n, y c * y c)) eps)

/-- Entry (p, j) of the second layer. -/
def unitSigAt (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) (eps : EReal) (p : Fin a) (j : Fin n) : Ideal .f32 :=
  Ideal.logistic (unitAt (fun c => affine2At s h wl b wr p c) eps j)

/-- The second layer as an [a, n] array. -/
def unitSigLayer (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) (eps : EReal) : FVec Ideal ⟨2, ![a, n]⟩ .f32 :=
  fun i => unitSigAt s h wl b wr eps (i 0) (i 1)

/-- Entry (p, j) of the first layer reads only row p of the matrices. -/
theorem sigAt_congr {a' : ℕ} (S H : FVec Ideal ⟨2, ![a, k]⟩ .f32) (s h : FVec Ideal ⟨2, ![a', k]⟩ .f32)
    (wl : FVec Ideal ⟨2, ![k, n]⟩ .f32) (b : FVec Ideal ⟨2, ![1, n]⟩ .f32) (wr : FVec Ideal ⟨2, ![k, n]⟩ .f32)
    (p : Fin a') (p' : Fin a) (j : Fin n)
    (hs : ∀ q : Fin k, s (ix2 p q) = S (ix2 p' q)) (hh : ∀ q : Fin k, h (ix2 p q) = H (ix2 p' q)) :
    sigAt s h wl b wr p j = sigAt S H wl b wr p' j :=
  congrArg Ideal.logistic (affine2At_congr S H wl b wr s h wl b wr p p' j hs hh (fun _ => rfl) rfl (fun _ => rfl))

/-- Entry (p, j) of the second layer reads only row p of the matrices. -/
theorem unitSigAt_congr {a' : ℕ} (S H : FVec Ideal ⟨2, ![a, k]⟩ .f32) (s h : FVec Ideal ⟨2, ![a', k]⟩ .f32)
    (wl : FVec Ideal ⟨2, ![k, n]⟩ .f32) (b : FVec Ideal ⟨2, ![1, n]⟩ .f32) (wr : FVec Ideal ⟨2, ![k, n]⟩ .f32) (eps : EReal)
    (p : Fin a') (p' : Fin a) (j : Fin n)
    (hs : ∀ q : Fin k, s (ix2 p q) = S (ix2 p' q)) (hh : ∀ q : Fin k, h (ix2 p q) = H (ix2 p' q)) :
    unitSigAt s h wl b wr eps p j = unitSigAt S H wl b wr eps p' j := by
  have e : (fun c => affine2At s h wl b wr p c) = fun c => affine2At S H wl b wr p' c :=
    funext fun c => affine2At_congr S H wl b wr s h wl b wr p p' c hs hh (fun _ => rfl) rfl (fun _ => rfl)
  unfold unitSigAt
  rw [e]

/-- A block of a' rows of the first layer, the rows starting at row `off` of the matrices, is the first layer of the
    blocks of rows. -/
theorem sigLayer_rows {a' : ℕ} (S H : FVec Ideal ⟨2, ![a, k]⟩ .f32) (wl wr : FVec Ideal ⟨2, ![k, n]⟩ .f32)
    (b : FVec Ideal ⟨2, ![1, n]⟩ .f32) (s h : FVec Ideal ⟨2, ![a', k]⟩ .f32) (off : ℕ)
    (hs : ∀ (y : (⟨2, ![a', k]⟩ : Shape).Idx) (i : (⟨2, ![a, k]⟩ : Shape).Idx),
      (i 0).val = off + (y 0).val → (i 1).val = (y 1).val → s y = S i)
    (hh : ∀ (y : (⟨2, ![a', k]⟩ : Shape).Idx) (i : (⟨2, ![a, k]⟩ : Shape).Idx),
      (i 0).val = off + (y 0).val → (i 1).val = (y 1).val → h y = H i)
    (y : (⟨2, ![a', n]⟩ : Shape).Idx) (i : (⟨2, ![a, n]⟩ : Shape).Idx)
    (h0 : (i 0).val = off + (y 0).val) (h1 : (i 1).val = (y 1).val) :
    sigLayer s h wl b wr y = sigLayer S H wl b wr i := by
  obtain ⟨r, q, rfl⟩ : ∃ (r : Fin a') (q : Fin n), y = ix2 r q := ⟨y 0, y 1, eq_ix2 y⟩
  obtain ⟨p, j, rfl⟩ : ∃ (p : Fin a) (j : Fin n), i = ix2 p j := ⟨i 0, i 1, eq_ix2 i⟩
  obtain rfl : j = q := Fin.ext h1
  exact sigAt_congr S H s h wl b wr r p j (fun x => hs (ix2 r x) (ix2 p x) h0 rfl) (fun x => hh (ix2 r x) (ix2 p x) h0 rfl)

/-- The same for the second layer. -/
theorem unitSigLayer_rows {a' : ℕ} (S H : FVec Ideal ⟨2, ![a, k]⟩ .f32) (wl wr : FVec Ideal ⟨2, ![k, n]⟩ .f32)
    (b : FVec Ideal ⟨2, ![1, n]⟩ .f32) (eps : EReal) (s h : FVec Ideal ⟨2, ![a', k]⟩ .f32) (off : ℕ)
    (hs : ∀ (y : (⟨2, ![a', k]⟩ : Shape).Idx) (i : (⟨2, ![a, k]⟩ : Shape).Idx),
      (i 0).val = off + (y 0).val → (i 1).val = (y 1).val → s y = S i)
    (hh : ∀ (y : (⟨2, ![a', k]⟩ : Shape).Idx) (i : (⟨2, ![a, k]⟩ : Shape).Idx),
      (i 0).val = off + (y 0).val → (i 1).val = (y 1).val → h y = H i)
    (y : (⟨2, ![a', n]⟩ : Shape).Idx) (i : (⟨2, ![a, n]⟩ : Shape).Idx)
    (h0 : (i 0).val = off + (y 0).val) (h1 : (i 1).val = (y 1).val) :
    unitSigLayer s h wl b wr eps y = unitSigLayer S H wl b wr eps i := by
  obtain ⟨r, q, rfl⟩ : ∃ (r : Fin a') (q : Fin n), y = ix2 r q := ⟨y 0, y 1, eq_ix2 y⟩
  obtain ⟨p, j, rfl⟩ : ∃ (p : Fin a) (j : Fin n), i = ix2 p j := ⟨i 0, i 1, eq_ix2 i⟩
  obtain rfl : j = q := Fin.ext h1
  exact unitSigAt_congr S H s h wl b wr eps r p j (fun x => hs (ix2 r x) (ix2 p x) h0 rfl) (fun x => hh (ix2 r x) (ix2 p x) h0 rfl)

section Core

variable (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)

/-- The dense map as the vector unit adds it up: the two products first, the bias row last. -/
def coreDense (hb : (⟨2, ![1, n]⟩ : Shape).Broadcasts ⟨2, ![a, n]⟩) (prec : Option ContractPrecision)
    (s h : FVec Ideal ⟨2, ![a, k]⟩ .f32) (wl wr : FVec Ideal ⟨2, ![k, n]⟩ .f32) (b : FVec Ideal ⟨2, ![1, n]⟩ .f32) :
    FVec Ideal ⟨2, ![a, n]⟩ .f32 :=
  addf (addf (FloatOps.matmul D prec s wl (constant ⟨2, ![a, n]⟩ .f32 0x00000000#32))
    (FloatOps.matmul D prec h wr (constant ⟨2, ![a, n]⟩ .f32 0x00000000#32))) (broadcastTo ⟨2, ![a, n]⟩ b hb)

include hr hs hl0 hl1 hr0 hr1 in
theorem coreDense_ix2 (hb : (⟨2, ![1, n]⟩ : Shape).Broadcasts ⟨2, ![a, n]⟩) (prec : Option ContractPrecision)
    (s h : FVec Ideal ⟨2, ![a, k]⟩ .f32) (wl wr : FVec Ideal ⟨2, ![k, n]⟩ .f32) (b : FVec Ideal ⟨2, ![1, n]⟩ .f32)
    (p : Fin a) (j : Fin n) : coreDense D hb prec s h wl wr b (ix2 p j) = affine2At s h wl b wr p j := by
  unfold coreDense affine2At
  rw [addf_apply, addf_apply, coreDot_ix2 D hr hs hl0 hl1 hr0 hr1, coreDot_ix2 D hr hs hl0 hl1 hr0 hr1,
    broadcastTo_1b_ab_apply]
  exact add_right_comm _ _ _

include hr hs hl0 hl1 hr0 hr1 in
/-- The vector unit's first layer is `sigLayer`. -/
theorem coreSig_eq (hb : (⟨2, ![1, n]⟩ : Shape).Broadcasts ⟨2, ![a, n]⟩) (prec : Option ContractPrecision)
    (s h : FVec Ideal ⟨2, ![a, k]⟩ .f32) (wl wr : FVec Ideal ⟨2, ![k, n]⟩ .f32) (b : FVec Ideal ⟨2, ![1, n]⟩ .f32) :
    logistic (coreDense D hb prec s h wl wr b) = sigLayer s h wl b wr := by
  funext i
  obtain ⟨p, j, rfl⟩ : ∃ (p : Fin a) (j : Fin n), i = ix2 p j := ⟨i 0, i 1, eq_ix2 i⟩
  show Ideal.logistic (coreDense D hb prec s h wl wr b (ix2 p j)) = Ideal.logistic (affine2At s h wl b wr p j)
  rw [coreDense_ix2 D hr hs hl0 hl1 hr0 hr1]

include hr hs hl0 hl1 hr0 hr1 in
/-- The vector unit's second layer is `unitSigLayer`. -/
theorem coreUnitSig_eq (hb : (⟨2, ![1, n]⟩ : Shape).Broadcasts ⟨2, ![a, n]⟩) (prec : Option ContractPrecision)
    (hred : (⟨2, ![a, n]⟩ : Shape).Reduces [1] (⟨1, ![a]⟩ : Shape)) (hφ : FKind.Formats .f32)
    (hacc : (0x00000000#32 : BitVec 32) = FKind.add.neutral .f32 hφ)
    (hc : (⟨1, ![a]⟩ : Shape).ShapeCasts ⟨2, ![a, 1]⟩) (hbc : (⟨2, ![a, 1]⟩ : Shape).Broadcasts ⟨2, ![a, n]⟩) (e : BitVec 32)
    (s h : FVec Ideal ⟨2, ![a, k]⟩ .f32) (wl wr : FVec Ideal ⟨2, ![k, n]⟩ .f32) (b : FVec Ideal ⟨2, ![1, n]⟩ .f32) :
    logistic (divf (coreDense D hb prec s h wl wr b)
        (broadcastTo ⟨2, ![a, n]⟩
          (maximumf (sqrt (shapeCast ⟨2, ![a, 1]⟩
              (multiReduction .add [1] ⟨1, ![a]⟩ (mulf (coreDense D hb prec s h wl wr b) (coreDense D hb prec s h wl wr b))
                0x00000000#32 hred hφ hacc) hc))
            (broadcast ⟨2, ![a, 1]⟩ (Scalar.ofBits .f32 e))) hbc))
      = unitSigLayer s h wl b wr (Ideal.ofBits .f32 e) := by
  funext i
  obtain ⟨p, j, rfl⟩ : ∃ (p : Fin a) (j : Fin n), i = ix2 p j := ⟨i 0, i 1, eq_ix2 i⟩
  show Ideal.logistic (Ideal.div (coreDense D hb prec s h wl wr b (ix2 p j)) (broadcastTo ⟨2, ![a, n]⟩ _ hbc (ix2 p j)))
    = Ideal.logistic (unitAt (fun c => affine2At s h wl b wr p c) (Ideal.ofBits .f32 e) j)
  rw [LibDenseOps.broadcastTo_a1_ab_apply, coreDense_ix2 D hr hs hl0 hl1 hr0 hr1]
  show Ideal.logistic (Ideal.div _ (max (Ideal.sqrt (shapeCast ⟨2, ![a, 1]⟩ _ hc (ix2 p (0 : Fin 1)))) (Ideal.ofBits .f32 e))) = _
  rw [LibDenseOps.shapeCast_a_a1_apply, LibDenseOps.laneSum_apply]
  unfold unitAt
  refine congrArg (fun t => Ideal.logistic (Ideal.div _ (max (Ideal.sqrt t) _))) (Finset.sum_congr rfl fun c _ => ?_)
  rw [mulf_apply, coreDense_ix2 D hr hs hl0 hl1 hr0 hr1]

end Core

section Host

variable (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)

/-- The logistic function as the host spells it, 1 / (1 + exp (−y)) with the ones splat constants. -/
def hostLogistic {T : Shape} (h1 : (⟨0, ![]⟩ : Shape).BroadcastsInDim T ![]) (y : FVec Ideal T .f32) : FVec Ideal T .f32 :=
  Host.divf (broadcastInDim T ![] h1 (constant (F := Ideal) ⟨0, ![]⟩ .f32 0x3F800000#32))
    (addf (broadcastInDim T ![] h1 (constant (F := Ideal) ⟨0, ![]⟩ .f32 0x3F800000#32)) (Host.exp (Host.negf y)))

theorem hostLogistic_apply {T : Shape} (h1 : (⟨0, ![]⟩ : Shape).BroadcastsInDim T ![]) (y : FVec Ideal T .f32) (i : T.Idx) :
    hostLogistic h1 y i = Ideal.logistic (y i) := by
  unfold hostLogistic
  rw [hostDivf_apply, addf_apply, broadcastInDim_scalar_apply, constant_apply, Ideal.ofBits_one_f32]
  rfl

include hr hs hl0 hl1 hr0 hr1 in
/-- The host's first layer is `sigLayer`. -/
theorem hostSig_eq (hd : (⟨2, ![1, n]⟩ : Shape).BroadcastsInDim ⟨2, ![a, n]⟩ ![0, 1])
    (h1 : (⟨0, ![]⟩ : Shape).BroadcastsInDim ⟨2, ![a, n]⟩ ![]) (prec : Option ContractPrecision)
    (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) :
    hostLogistic h1 (addf (addf (Host.dotGeneral D prec s wl) (broadcastInDim ⟨2, ![a, n]⟩ ![0, 1] hd b)) (Host.dotGeneral D prec h wr))
      = sigLayer s h wl b wr := by
  funext i
  rw [hostLogistic_apply, hostAffine2_eq D hr hs hl0 hl1 hr0 hr1]
  rfl

/-- A column [a, 1] laid along every row of an [a, n] array by a broadcast along both axes reads, at (p, c), the
    column's entry p. -/
theorem broadcastInDim_a1_an_apply {α : Type} (hd : (⟨2, ![a, 1]⟩ : Shape).BroadcastsInDim ⟨2, ![a, n]⟩ ![0, 1])
    (v : (⟨2, ![a, 1]⟩ : Shape).Idx → α) (p : Fin a) (c : Fin n) :
    broadcastInDim ⟨2, ![a, n]⟩ ![0, 1] hd v (ix2 p c) = v (ix2 p (0 : Fin 1)) := by
  refine broadcastInDim_apply ![0, 1] hd v (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- The host's square root at an index. -/
theorem hostSqrt_apply {T : Shape} (v : FVec Ideal T .f32) (i : T.Idx) : Host.sqrt v i = Ideal.sqrt (v i) := rfl

/-- The host's sum over axis 1 of an [a, n] array from a zero initial value, read at row p: the sum over the row. -/
theorem hostRowSum_apply (x : FVec Ideal ⟨2, ![a, n]⟩ .f32)
    (hrt : (⟨2, ![a, n]⟩ : Shape).ReducesTo [1] (⟨1, ![a]⟩ : Shape)) (hred : (⟨2, ![a, n]⟩ : Shape).Reduces [1] (⟨1, ![a]⟩ : Shape))
    (hu : 0 < (⟨0, ![]⟩ : Shape).numel) (p : Fin a) :
    Host.reduceAdd x (constant (F := Ideal) ⟨0, ![]⟩ .f32 0x00000000#32) hrt hu (ix1 p) = ∑ c : Fin n, x (ix2 p c) := by
  simp only [Host.reduceAdd, Ideal.hostReduceAdd_def]
  rw [Ideal.hostReduceAdd_single hrt hred, constant_apply, Ideal.ofBits_zero_f32, zero_add]
  exact Finset.sum_congr rfl fun c _ => congrArg x (LibDenseOps.lift_lane hred p c)

include hr hs hl0 hl1 hr0 hr1 in
/-- The host's second layer is `unitSigLayer`. -/
theorem hostUnitSig_eq (hd : (⟨2, ![1, n]⟩ : Shape).BroadcastsInDim ⟨2, ![a, n]⟩ ![0, 1])
    (h1 : (⟨0, ![]⟩ : Shape).BroadcastsInDim ⟨2, ![a, n]⟩ ![])
    (hrt : (⟨2, ![a, n]⟩ : Shape).ReducesTo [1] (⟨1, ![a]⟩ : Shape)) (hred : (⟨2, ![a, n]⟩ : Shape).Reduces [1] (⟨1, ![a]⟩ : Shape))
    (hu : 0 < (⟨0, ![]⟩ : Shape).numel)
    (hcol : (⟨1, ![a]⟩ : Shape).BroadcastsInDim ⟨2, ![a, 1]⟩ ![0]) (he : (⟨0, ![]⟩ : Shape).BroadcastsInDim ⟨2, ![a, 1]⟩ ![])
    (hcb : (⟨2, ![a, 1]⟩ : Shape).BroadcastsInDim ⟨2, ![a, n]⟩ ![0, 1]) (e : BitVec 32) (prec : Option ContractPrecision)
    (s h : FVec Ideal ⟨2, ![a, k]⟩ .f32) (wl : FVec Ideal ⟨2, ![k, n]⟩ .f32) (b : FVec Ideal ⟨2, ![1, n]⟩ .f32)
    (wr : FVec Ideal ⟨2, ![k, n]⟩ .f32)
    (y : FVec Ideal ⟨2, ![a, n]⟩ .f32)
    (hy : y = addf (addf (Host.dotGeneral D prec s wl) (broadcastInDim ⟨2, ![a, n]⟩ ![0, 1] hd b)) (Host.dotGeneral D prec h wr)) :
    hostLogistic h1 (Host.divf y (broadcastInDim ⟨2, ![a, n]⟩ ![0, 1] hcb
        (maximumf (Host.sqrt (broadcastInDim ⟨2, ![a, 1]⟩ ![0] hcol
            (Host.reduceAdd (mulf y y) (constant (F := Ideal) ⟨0, ![]⟩ .f32 0x00000000#32) hrt hu)))
          (broadcastInDim ⟨2, ![a, 1]⟩ ![] he (constant (F := Ideal) ⟨0, ![]⟩ .f32 e)))))
      = unitSigLayer s h wl b wr (Ideal.ofBits .f32 e) := by
  have hy2 : y = affine2 s h wl b wr := hy.trans (hostAffine2_eq D hr hs hl0 hl1 hr0 hr1 hd prec s h wl b wr)
  funext i
  obtain ⟨p, j, rfl⟩ : ∃ (p : Fin a) (j : Fin n), i = ix2 p j := ⟨i 0, i 1, eq_ix2 i⟩
  rw [hostLogistic_apply, hostDivf_apply, broadcastInDim_a1_an_apply, maximumf_apply, hostSqrt_apply,
    LibColumnRow.broadcastInDim_a_a1_apply, hostRowSum_apply _ hrt hred hu, broadcastInDim_scalar_apply, constant_apply]
  subst hy2
  unfold unitSigLayer unitSigAt unitAt
  simp only [mulf_apply, affine2_ix2]
  rfl

end Host

end Cert.Sage

end
-- ==== Proof.LibUnitRows.lean ====
/-
  A mean-aggregation graph layer whose rows are scaled to unit length, on the extended reals, read at an index.

  A node's row of aggregated neighbour features is first divided by the larger of the node's neighbour count and a
  threshold `one` (the neighbour mean, `meanArr`). The two-product dense map  y = s · wl + b + h · wr  of the mean
  `s` and the nodes' own features `h` follows, and every row of y is divided by the larger of its Euclidean length and
  a positive threshold `eps` (`unitRows`). A rectifier, the entrywise maximum with a constant, may follow (`reluArr`).

  * `meanArr`, `unitRows`, `reluArr`, `sageUnit`: the pieces and the whole layer as arrays over variable extents;
  * `coreMean_eq`, `coreUnitRows_eq`, `coreRelu_eq`: the vector unit's spelling — the count column compared with a
    splat and laid along the rows, the quotient; two matrix products into zero accumulators with the bias row added
    to the first, the lane sum of squares kept as a column, its square root compared with a splat and laid along the
    rows, the quotient; the maximum with a splat — is those arrays;
  * `hostMean_eq`, `hostUnitRows_eq`, `hostRelu_eq`: the host's spelling — the count vector compared with a constant
    before it becomes a column, broadcasts along both axes, a sum over axis 1 from a zero initial value — is the same
    arrays;
  * `sageUnit_rows`: entry (p, j) of the layer reads only row p of the three per-node operands, so a block of rows of
    the layer is the layer of the blocks of rows. No law of arithmetic is used anywhere: both spellings are the same
    expression entry by entry.
  Nothing here mentions a program: the extents are variables and the dimension records are hypotheses.
-/
import proofs.«166755_j34772055228551_2_alg».proof.Proof.LibSigmoidLayers

noncomputable section

namespace Cert.UnitRows

open Idealize.ShloMosaic Idealize.ShloMosaic.ValueIdx Cert.LibAffine Cert.Sage

variable {a k n : ℕ}

/-! ## The neighbour mean -/

/-- Entry (p, q) of the neighbour mean: the aggregated feature over the larger of node p's count and `one`. -/
def meanAt (s : FVec Ideal ⟨2, ![a, k]⟩ .f32) (cnt : FVec Ideal ⟨2, ![a, 1]⟩ .f32) (one : EReal) (p : Fin a) (q : Fin k) :
    Ideal .f32 :=
  Ideal.div (s (ix2 p q)) (max (cnt (ix2 p (0 : Fin 1))) one)

/-- The neighbour mean as an [a, k] array. -/
def meanArr (s : FVec Ideal ⟨2, ![a, k]⟩ .f32) (cnt : FVec Ideal ⟨2, ![a, 1]⟩ .f32) (one : EReal) :
    FVec Ideal ⟨2, ![a, k]⟩ .f32 :=
  fun i => meanAt s cnt one (i 0) (i 1)

theorem meanArr_ix2 (s : FVec Ideal ⟨2, ![a, k]⟩ .f32) (cnt : FVec Ideal ⟨2, ![a, 1]⟩ .f32) (one : EReal) (p : Fin a)
    (q : Fin k) : meanArr s cnt one (ix2 p q) = meanAt s cnt one p q := rfl

/-- The vector unit's mean: the count column compared with a splat, laid along the rows, the quotient. -/
theorem coreMean_eq (hb : (⟨2, ![a, 1]⟩ : Shape).Broadcasts ⟨2, ![a, k]⟩) (o : BitVec 32)
    (s : FVec Ideal ⟨2, ![a, k]⟩ .f32) (cnt : FVec Ideal ⟨2, ![a, 1]⟩ .f32) :
    divf s (broadcastTo ⟨2, ![a, k]⟩ (maximumf cnt (broadcast ⟨2, ![a, 1]⟩ (Scalar.ofBits .f32 o))) hb)
      = meanArr s cnt (Ideal.ofBits .f32 o) := by
  funext i
  obtain ⟨p, q, rfl⟩ : ∃ (p : Fin a) (q : Fin k), i = ix2 p q := ⟨i 0, i 1, eq_ix2 i⟩
  rw [divf_apply, LibDenseOps.broadcastTo_a1_ab_apply, maximumf_apply, broadcast_apply]
  rfl

/-- The host's mean: the count vector compared with a constant, made a column, laid along the rows, the quotient. -/
theorem hostMean_eq (h1 : (⟨0, ![]⟩ : Shape).BroadcastsInDim ⟨1, ![a]⟩ ![])
    (hcol : (⟨1, ![a]⟩ : Shape).BroadcastsInDim ⟨2, ![a, 1]⟩ ![0])
    (hcb : (⟨2, ![a, 1]⟩ : Shape).BroadcastsInDim ⟨2, ![a, k]⟩ ![0, 1]) (o : BitVec 32)
    (s : FVec Ideal ⟨2, ![a, k]⟩ .f32) (cv : FVec Ideal ⟨1, ![a]⟩ .f32) :
    Host.divf s (broadcastInDim ⟨2, ![a, k]⟩ ![0, 1] hcb (broadcastInDim ⟨2, ![a, 1]⟩ ![0] hcol
        (maximumf cv (broadcastInDim ⟨1, ![a]⟩ ![] h1 (constant (F := Ideal) ⟨0, ![]⟩ .f32 o)))))
      = meanArr s (broadcastInDim ⟨2, ![a, 1]⟩ ![0] hcol cv) (Ideal.ofBits .f32 o) := by
  funext i
  obtain ⟨p, q, rfl⟩ : ∃ (p : Fin a) (q : Fin k), i = ix2 p q := ⟨i 0, i 1, eq_ix2 i⟩
  rw [hostDivf_apply, broadcastInDim_a1_an_apply, LibColumnRow.broadcastInDim_a_a1_apply, maximumf_apply,
    broadcastInDim_scalar_apply, constant_apply, meanArr_ix2]
  unfold meanAt
  rw [LibColumnRow.broadcastInDim_a_a1_apply]

/-! ## Rows scaled to unit length -/

/-- Entry (p, j) of the dense map with every row divided by the larger of its Euclidean length and `eps`. -/
def unitRowsAt (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) (eps : EReal) (p : Fin a) (j : Fin n) : Ideal .f32 :=
  unitAt (fun c => affine2At s h wl b wr p c) eps j

/-- The dense map with unit-length rows as an [a, n] array. -/
def unitRows (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) (eps : EReal) : FVec Ideal ⟨2, ![a, n]⟩ .f32 :=
  fun i => unitRowsAt s h wl b wr eps (i 0) (i 1)

theorem unitRows_ix2 (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) (eps : EReal) (p : Fin a) (j : Fin n) :
    unitRows s h wl b wr eps (ix2 p j) = unitRowsAt s h wl b wr eps p j := rfl

section Dims

variable (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)

include hr hs hl0 hl1 hr0 hr1 in
/-- The vector unit's chain — the dense map `y` as two matrix products into zero accumulators with the bias row added
    to the first, then the lane sum of y², kept as a column, its square root, the maximum with a splat, laid along
    the rows, the quotient — is `unitRows`. -/
theorem coreUnitRows_eq (hb : (⟨2, ![1, n]⟩ : Shape).Broadcasts ⟨2, ![a, n]⟩) (prec : Option ContractPrecision)
    (hred : (⟨2, ![a, n]⟩ : Shape).Reduces [1] (⟨1, ![a]⟩ : Shape)) (hφ : FKind.Formats .f32)
    (hacc : (0x00000000#32 : BitVec 32) = FKind.add.neutral .f32 hφ)
    (hc : (⟨1, ![a]⟩ : Shape).ShapeCasts ⟨2, ![a, 1]⟩) (hbc : (⟨2, ![a, 1]⟩ : Shape).Broadcasts ⟨2, ![a, n]⟩) (e : BitVec 32)
    (s h : FVec Ideal ⟨2, ![a, k]⟩ .f32) (wl wr : FVec Ideal ⟨2, ![k, n]⟩ .f32) (b : FVec Ideal ⟨2, ![1, n]⟩ .f32)
    (y : FVec Ideal ⟨2, ![a, n]⟩ .f32)
    (hy : y = addf (addf (FloatOps.matmul D prec s wl (constant ⟨2, ![a, n]⟩ .f32 0x00000000#32)) (broadcastTo ⟨2, ![a, n]⟩ b hb))
        (FloatOps.matmul D prec h wr (constant ⟨2, ![a, n]⟩ .f32 0x00000000#32))) :
    divf y (broadcastTo ⟨2, ![a, n]⟩
        (maximumf (sqrt (shapeCast ⟨2, ![a, 1]⟩ (multiReduction .add [1] ⟨1, ![a]⟩ (mulf y y) 0x00000000#32 hred hφ hacc) hc))
          (broadcast ⟨2, ![a, 1]⟩ (Scalar.ofBits .f32 e))) hbc)
      = unitRows s h wl b wr (Ideal.ofBits .f32 e) := by
  have hy2 : y = affine2 s h wl b wr := hy.trans (coreAffine2_eq D hr hs hl0 hl1 hr0 hr1 hb prec s h wl wr b)
  subst hy2
  funext i
  obtain ⟨p, j, rfl⟩ : ∃ (p : Fin a) (j : Fin n), i = ix2 p j := ⟨i 0, i 1, eq_ix2 i⟩
  show Ideal.div (affine2 s h wl b wr (ix2 p j)) (broadcastTo ⟨2, ![a, n]⟩ _ hbc (ix2 p j)) = _
  rw [LibDenseOps.broadcastTo_a1_ab_apply]
  show Ideal.div _ (max (Ideal.sqrt (shapeCast ⟨2, ![a, 1]⟩ _ hc (ix2 p (0 : Fin 1)))) (Ideal.ofBits .f32 e)) = _
  rw [LibDenseOps.shapeCast_a_a1_apply, LibDenseOps.laneSum_apply]
  rfl

include hr hs hl0 hl1 hr0 hr1 in
/-- The host's chain — product, plus the bias row laid along the rows, plus the second product; the sum over axis 1 of
    y² from a zero initial value, made a column, its square root, the maximum with a constant, laid along the rows, the
    quotient — is `unitRows`. -/
theorem hostUnitRows_eq (hd : (⟨2, ![1, n]⟩ : Shape).BroadcastsInDim ⟨2, ![a, n]⟩ ![0, 1])
    (hrt : (⟨2, ![a, n]⟩ : Shape).ReducesTo [1] (⟨1, ![a]⟩ : Shape)) (hred : (⟨2, ![a, n]⟩ : Shape).Reduces [1] (⟨1, ![a]⟩ : Shape))
    (hu : 0 < (⟨0, ![]⟩ : Shape).numel)
    (hcol : (⟨1, ![a]⟩ : Shape).BroadcastsInDim ⟨2, ![a, 1]⟩ ![0]) (he : (⟨0, ![]⟩ : Shape).BroadcastsInDim ⟨2, ![a, 1]⟩ ![])
    (hcb : (⟨2, ![a, 1]⟩ : Shape).BroadcastsInDim ⟨2, ![a, n]⟩ ![0, 1]) (e : BitVec 32) (prec : Option ContractPrecision)
    (s h : FVec Ideal ⟨2, ![a, k]⟩ .f32) (wl : FVec Ideal ⟨2, ![k, n]⟩ .f32) (b : FVec Ideal ⟨2, ![1, n]⟩ .f32)
    (wr : FVec Ideal ⟨2, ![k, n]⟩ .f32)
    (y : FVec Ideal ⟨2, ![a, n]⟩ .f32)
    (hy : y = addf (addf (Host.dotGeneral D prec s wl) (broadcastInDim ⟨2, ![a, n]⟩ ![0, 1] hd b)) (Host.dotGeneral D prec h wr)) :
    Host.divf y (broadcastInDim ⟨2, ![a, n]⟩ ![0, 1] hcb
        (maximumf (Host.sqrt (broadcastInDim ⟨2, ![a, 1]⟩ ![0] hcol
            (Host.reduceAdd (mulf y y) (constant (F := Ideal) ⟨0, ![]⟩ .f32 0x00000000#32) hrt hu)))
          (broadcastInDim ⟨2, ![a, 1]⟩ ![] he (constant (F := Ideal) ⟨0, ![]⟩ .f32 e))))
      = unitRows s h wl b wr (Ideal.ofBits .f32 e) := by
  have hy2 : y = affine2 s h wl b wr := hy.trans (hostAffine2_eq D hr hs hl0 hl1 hr0 hr1 hd prec s h wl b wr)
  subst hy2
  funext i
  obtain ⟨p, j, rfl⟩ : ∃ (p : Fin a) (j : Fin n), i = ix2 p j := ⟨i 0, i 1, eq_ix2 i⟩
  rw [hostDivf_apply, broadcastInDim_a1_an_apply, maximumf_apply, hostSqrt_apply,
    LibColumnRow.broadcastInDim_a_a1_apply, hostRowSum_apply _ hrt hred hu, broadcastInDim_scalar_apply, constant_apply]
  rfl

end Dims

/-! ## The rectifier -/

/-- The entrywise maximum with a constant `z`. -/
def reluArr {T : Shape} (z : EReal) (y : FVec Ideal T .f32) : FVec Ideal T .f32 := fun i => max (y i) z

/-- The vector unit's rectifier: the maximum with a splat. -/
theorem coreRelu_eq {T : Shape} (zb : BitVec 32) (y : FVec Ideal T .f32) :
    maximumf y (broadcast T (Scalar.ofBits .f32 zb)) = reluArr (Ideal.ofBits .f32 zb) y := by
  funext i
  rw [maximumf_apply, broadcast_apply]
  rfl

/-- The host's rectifier: the maximum with a rank-0 constant spread over the shape. -/
theorem hostRelu_eq {T : Shape} (h1 : (⟨0, ![]⟩ : Shape).BroadcastsInDim T ![]) (zb : BitVec 32) (y : FVec Ideal T .f32) :
    maximumf y (broadcastInDim T ![] h1 (constant (F := Ideal) ⟨0, ![]⟩ .f32 zb)) = reluArr (Ideal.ofBits .f32 zb) y := by
  funext i
  rw [maximumf_apply, broadcastInDim_scalar_apply, constant_apply]
  rfl

/-! ## The whole layer, and its rows -/

/-- The layer: the dense map of the neighbour mean and the nodes' own features, rows scaled to unit length. -/
def sageUnit (s : FVec Ideal ⟨2, ![a, k]⟩ .f32) (cnt : FVec Ideal ⟨2, ![a, 1]⟩ .f32) (h : FVec Ideal ⟨2, ![a, k]⟩ .f32)
    (wl : FVec Ideal ⟨2, ![k, n]⟩ .f32) (b : FVec Ideal ⟨2, ![1, n]⟩ .f32) (wr : FVec Ideal ⟨2, ![k, n]⟩ .f32)
    (one eps : EReal) : FVec Ideal ⟨2, ![a, n]⟩ .f32 :=
  unitRows (meanArr s cnt one) h wl b wr eps

/-- Entry (p, j) of `unitRows` reads only row p of the two matrices. -/
theorem unitRowsAt_congr {a' : ℕ} (S H : FVec Ideal ⟨2, ![a, k]⟩ .f32) (s h : FVec Ideal ⟨2, ![a', k]⟩ .f32)
    (WL wl : FVec Ideal ⟨2, ![k, n]⟩ .f32) (B b : FVec Ideal ⟨2, ![1, n]⟩ .f32) (WR wr : FVec Ideal ⟨2, ![k, n]⟩ .f32) (eps : EReal)
    (p : Fin a') (p' : Fin a) (j : Fin n)
    (hs : ∀ q : Fin k, s (ix2 p q) = S (ix2 p' q)) (hh : ∀ q : Fin k, h (ix2 p q) = H (ix2 p' q))
    (hwl : ∀ i, wl i = WL i) (hb : ∀ i, b i = B i) (hwr : ∀ i, wr i = WR i) :
    unitRowsAt s h wl b wr eps p j = unitRowsAt S H WL B WR eps p' j := by
  have e : (fun c => affine2At s h wl b wr p c) = fun c => affine2At S H WL B WR p' c :=
    funext fun c => affine2At_congr S H WL B WR s h wl b wr p p' c hs hh (fun _ => hwl _) (hb _) (fun _ => hwr _)
  unfold unitRowsAt
  rw [e]

/-- A block of a' rows of the layer, the rows starting at row `off` of the per-node operands, is the layer of the
    blocks of rows (the weights and the bias row taken whole). -/
theorem sageUnit_rows {a' : ℕ} (S : FVec Ideal ⟨2, ![a, k]⟩ .f32) (C : FVec Ideal ⟨2, ![a, 1]⟩ .f32) (H : FVec Ideal ⟨2, ![a, k]⟩ .f32)
    (WL : FVec Ideal ⟨2, ![k, n]⟩ .f32) (B : FVec Ideal ⟨2, ![1, n]⟩ .f32) (WR : FVec Ideal ⟨2, ![k, n]⟩ .f32)
    (s : FVec Ideal ⟨2, ![a', k]⟩ .f32) (c : FVec Ideal ⟨2, ![a', 1]⟩ .f32) (h : FVec Ideal ⟨2, ![a', k]⟩ .f32)
    (wl : FVec Ideal ⟨2, ![k, n]⟩ .f32) (b : FVec Ideal ⟨2, ![1, n]⟩ .f32) (wr : FVec Ideal ⟨2, ![k, n]⟩ .f32)
    (one eps : EReal) (off : ℕ)
    (hs : ∀ (y : (⟨2, ![a', k]⟩ : Shape).Idx) (i : (⟨2, ![a, k]⟩ : Shape).Idx),
      (i 0).val = off + (y 0).val → (i 1).val = (y 1).val → s y = S i)
    (hc : ∀ (y : (⟨2, ![a', 1]⟩ : Shape).Idx) (i : (⟨2, ![a, 1]⟩ : Shape).Idx),
      (i 0).val = off + (y 0).val → (i 1).val = (y 1).val → c y = C i)
    (hh : ∀ (y : (⟨2, ![a', k]⟩ : Shape).Idx) (i : (⟨2, ![a, k]⟩ : Shape).Idx),
      (i 0).val = off + (y 0).val → (i 1).val = (y 1).val → h y = H i)
    (hwl : ∀ i, wl i = WL i) (hb : ∀ i, b i = B i) (hwr : ∀ i, wr i = WR i)
    (y : (⟨2, ![a', n]⟩ : Shape).Idx) (i : (⟨2, ![a, n]⟩ : Shape).Idx)
    (h0 : (i 0).val = off + (y 0).val) (h1 : (i 1).val = (y 1).val) :
    sageUnit s c h wl b wr one eps y = sageUnit S C H WL B WR one eps i := by
  obtain ⟨r, q, rfl⟩ : ∃ (r : Fin a') (q : Fin n), y = ix2 r q := ⟨y 0, y 1, eq_ix2 y⟩
  obtain ⟨p, j, rfl⟩ : ∃ (p : Fin a) (j : Fin n), i = ix2 p j := ⟨i 0, i 1, eq_ix2 i⟩
  obtain rfl : j = q := Fin.ext h1
  refine unitRowsAt_congr (meanArr S C one) H (meanArr s c one) h WL wl B b WR wr eps r p j (fun x => ?_)
    (fun x => hh (ix2 r x) (ix2 p x) h0 rfl) hwl hb hwr
  rw [meanArr_ix2, meanArr_ix2]
  unfold meanAt
  rw [hs (ix2 r x) (ix2 p x) h0 rfl, hc (ix2 r (0 : Fin 1)) (ix2 p (0 : Fin 1)) h0 rfl]

end Cert.UnitRows

end
-- ==== Proof.Net.lean ====
/-
  The two layers of the network, as arrays over the extended reals.

  Each layer takes the aggregated neighbour features `s` (one row per node), the neighbour counts `cnt` as a column,
  the nodes' own features `h`, two weight matrices and a bias row. Row p of `s` is divided by max(cnt p, 1), the dense
  map  y = mean · wl + b + h · wr  is taken, and every row of y is divided by max(‖y row‖, ε) with ε the single-
  precision word nearest 1e-12. The first layer ends with a rectifier, max(·, 0); the second does not. Both are stated
  over variable extents, so that the same definition reads a block of rows and the whole array.
-/
import proofs.«166755_j34772055228551_2_alg».proof.Proof.LibUnitRows

noncomputable section

namespace Cert.SageNet

open Idealize.ShloMosaic Idealize.ShloMosaic.ValueIdx Cert.UnitRows

/-- The count threshold, the word of 1.0. -/
abbrev one : EReal := Ideal.ofBits .f32 0x3F800000#32
/-- The length threshold, the word of 9.99999996e-13. -/
abbrev eps : EReal := Ideal.ofBits .f32 0x2B8CBCCC#32
/-- The rectifier's constant, the zero word. -/
abbrev zero : EReal := Ideal.ofBits .f32 0x00000000#32

variable {a k n : ℕ}

/-- The first layer: mean, dense map, unit rows, rectifier. -/
def layer1 (s : FVec Ideal ⟨2, ![a, k]⟩ .f32) (cnt : FVec Ideal ⟨2, ![a, 1]⟩ .f32) (h : FVec Ideal ⟨2, ![a, k]⟩ .f32)
    (wl : FVec Ideal ⟨2, ![k, n]⟩ .f32) (b : FVec Ideal ⟨2, ![1, n]⟩ .f32) (wr : FVec Ideal ⟨2, ![k, n]⟩ .f32) :
    FVec Ideal ⟨2, ![a, n]⟩ .f32 :=
  reluArr zero (sageUnit s cnt h wl b wr one eps)

/-- The second layer: mean, dense map, unit rows. -/
def layer2 (s : FVec Ideal ⟨2, ![a, k]⟩ .f32) (cnt : FVec Ideal ⟨2, ![a, 1]⟩ .f32) (h : FVec Ideal ⟨2, ![a, k]⟩ .f32)
    (wl : FVec Ideal ⟨2, ![k, n]⟩ .f32) (b : FVec Ideal ⟨2, ![1, n]⟩ .f32) (wr : FVec Ideal ⟨2, ![k, n]⟩ .f32) :
    FVec Ideal ⟨2, ![a, n]⟩ .f32 :=
  sageUnit s cnt h wl b wr one eps

/-- A block of rows of the second layer is the second layer of the blocks of rows. -/
theorem layer2_rows {a' : ℕ} (S : FVec Ideal ⟨2, ![a, k]⟩ .f32) (C : FVec Ideal ⟨2, ![a, 1]⟩ .f32) (H : FVec Ideal ⟨2, ![a, k]⟩ .f32)
    (WL : FVec Ideal ⟨2, ![k, n]⟩ .f32) (B : FVec Ideal ⟨2, ![1, n]⟩ .f32) (WR : FVec Ideal ⟨2, ![k, n]⟩ .f32)
    (s : FVec Ideal ⟨2, ![a', k]⟩ .f32) (c : FVec Ideal ⟨2, ![a', 1]⟩ .f32) (h : FVec Ideal ⟨2, ![a', k]⟩ .f32)
    (wl : FVec Ideal ⟨2, ![k, n]⟩ .f32) (b : FVec Ideal ⟨2, ![1, n]⟩ .f32) (wr : FVec Ideal ⟨2, ![k, n]⟩ .f32) (off : ℕ)
    (hs : ∀ (y : (⟨2, ![a', k]⟩ : Shape).Idx) (i : (⟨2, ![a, k]⟩ : Shape).Idx),
      (i 0).val = off + (y 0).val → (i 1).val = (y 1).val → s y = S i)
    (hc : ∀ (y : (⟨2, ![a', 1]⟩ : Shape).Idx) (i : (⟨2, ![a, 1]⟩ : Shape).Idx),
      (i 0).val = off + (y 0).val → (i 1).val = (y 1).val → c y = C i)
    (hh : ∀ (y : (⟨2, ![a', k]⟩ : Shape).Idx) (i : (⟨2, ![a, k]⟩ : Shape).Idx),
      (i 0).val = off + (y 0).val → (i 1).val = (y 1).val → h y = H i)
    (hwl : ∀ i, wl i = WL i) (hb : ∀ i, b i = B i) (hwr : ∀ i, wr i = WR i)
    (y : (⟨2, ![a', n]⟩ : Shape).Idx) (i : (⟨2, ![a, n]⟩ : Shape).Idx)
    (h0 : (i 0).val = off + (y 0).val) (h1 : (i 1).val = (y 1).val) :
    layer2 s c h wl b wr y = layer2 S C H WL B WR i :=
  sageUnit_rows S C H WL B WR s c h wl b wr one eps off hs hc hh hwl hb hwr y i h0 h1

/-- A block of rows of the first layer is the first layer of the blocks of rows. -/
theorem layer1_rows {a' : ℕ} (S : FVec Ideal ⟨2, ![a, k]⟩ .f32) (C : FVec Ideal ⟨2, ![a, 1]⟩ .f32) (H : FVec Ideal ⟨2, ![a, k]⟩ .f32)
    (WL : FVec Ideal ⟨2, ![k, n]⟩ .f32) (B : FVec Ideal ⟨2, ![1, n]⟩ .f32) (WR : FVec Ideal ⟨2, ![k, n]⟩ .f32)
    (s : FVec Ideal ⟨2, ![a', k]⟩ .f32) (c : FVec Ideal ⟨2, ![a', 1]⟩ .f32) (h : FVec Ideal ⟨2, ![a', k]⟩ .f32)
    (wl : FVec Ideal ⟨2, ![k, n]⟩ .f32) (b : FVec Ideal ⟨2, ![1, n]⟩ .f32) (wr : FVec Ideal ⟨2, ![k, n]⟩ .f32) (off : ℕ)
    (hs : ∀ (y : (⟨2, ![a', k]⟩ : Shape).Idx) (i : (⟨2, ![a, k]⟩ : Shape).Idx),
      (i 0).val = off + (y 0).val → (i 1).val = (y 1).val → s y = S i)
    (hc : ∀ (y : (⟨2, ![a', 1]⟩ : Shape).Idx) (i : (⟨2, ![a, 1]⟩ : Shape).Idx),
      (i 0).val = off + (y 0).val → (i 1).val = (y 1).val → c y = C i)
    (hh : ∀ (y : (⟨2, ![a', k]⟩ : Shape).Idx) (i : (⟨2, ![a, k]⟩ : Shape).Idx),
      (i 0).val = off + (y 0).val → (i 1).val = (y 1).val → h y = H i)
    (hwl : ∀ i, wl i = WL i) (hb : ∀ i, b i = B i) (hwr : ∀ i, wr i = WR i)
    (y : (⟨2, ![a', n]⟩ : Shape).Idx) (i : (⟨2, ![a, n]⟩ : Shape).Idx)
    (h0 : (i 0).val = off + (y 0).val) (h1 : (i 1).val = (y 1).val) :
    layer1 s c h wl b wr y = layer1 S C H WL B WR i :=
  congrArg (fun v => max v zero) (sageUnit_rows S C H WL B WR s c h wl b wr one eps off hs hc hh hwl hb hwr y i h0 h1)

end Cert.SageNet

end
-- ==== Proof.LibPlainDot.lean ====
/-
  General lemmas: the dimension record of a plain matrix product.

  A product of an [a, k] array by a [k, n] array contracts the left operand's axis 1 against the right operand's
  axis 0; the result's axis 0 is the left operand's axis 0 and its axis 1 the right operand's axis 1; nothing is
  batched. For ANY dimension record with those six axis lists:

  * `contr_rank`, `contr_size`: the contraction has one axis, of extent k;
  * `lhs_row`, `lhs_col`: at result index i and contraction position q the left operand is read at
    (i 0, q 0);
  * `rhs_row`, `rhs_col`: the right operand is read at (q 0, i 1).

  These are the six facts under which a host product and a matrix-unit product into a zero accumulator are the sum
  over q of L (p, q) · R (q, j). Nothing here mentions a program: the extents are variables and the record is any
  record with the stated axis lists.
-/
import Idealize.ShloMosaic.Lib.ValueIdx

noncomputable section

namespace Cert.LibPlainDot

open Idealize.ShloMosaic Idealize.ShloMosaic.ValueIdx

variable {a k n : ℕ} (D : DotDims ⟨2, ![a, k]⟩ ⟨2, ![k, n]⟩ ⟨2, ![a, n]⟩)

/-- The contraction has one axis. -/
theorem contr_rank (hlc : D.lhsContracting = [1]) : D.contr.rank = 1 := by
  rw [D.rank_contr, hlc]; rfl

/-- Two coordinates of one index at equal positions are equal. -/
private theorem coord_congr {s : Shape} (i : s.Idx) (p q : ℕ) (hp : p < s.rank) (hq : q < s.rank) (h : p = q) :
    (i ⟨p, hp⟩).val = (i ⟨q, hq⟩).val := by subst h; rfl

/-- The contraction's one axis has the left operand's column extent. -/
theorem contr_size (hlc : D.lhsContracting = [1]) :
    D.contr.size ⟨0, by rw [contr_rank D hlc]; exact Nat.one_pos⟩ = k := by
  have h0 : 0 < D.lhsContracting.length := by rw [hlc]; exact Nat.one_pos
  have e := D.size_contr 0 h0
  have e1 : D.lhsContracting[0] = (1 : Fin 2) := by simp only [hlc, List.getElem_cons_zero]
  rw [e1] at e
  exact e

/-- The left operand's row is the result's row. -/
theorem lhs_row (hlb : D.lhsBatch = []) (hln : D.lhsNonContracting = [0]) (i : (⟨2, ![a, n]⟩ : Shape).Idx) (q : D.contr.Idx) :
    (D.lhsIdx i q 0).val = (i 0).val := by
  unfold DotDims.lhsIdx
  rw [dif_neg (by rw [hlb]; exact List.not_mem_nil), dif_pos (by rw [hln]; exact List.mem_singleton.mpr rfl)]
  simp only [Fin.val_cast]
  exact coord_congr i _ _ _ _ (by simp [hlb, hln])

/-- The left operand's column is the contraction position. -/
theorem lhs_col (hlc : D.lhsContracting = [1]) (i : (⟨2, ![a, n]⟩ : Shape).Idx) (q : D.contr.Idx) :
    (D.lhsIdx i q 1).val = (q ⟨0, by rw [contr_rank D hlc]; exact Nat.one_pos⟩).val :=
  D.lhsIdx_val_of_single hlc i q

/-- The right operand's row is the contraction position. -/
theorem rhs_row (hlc : D.lhsContracting = [1]) (hrc : D.rhsContracting = [0]) (i : (⟨2, ![a, n]⟩ : Shape).Idx) (q : D.contr.Idx) :
    (D.rhsIdx i q 0).val = (q ⟨0, by rw [contr_rank D hlc]; exact Nat.one_pos⟩).val :=
  D.rhsIdx_val_of_single hrc i q

/-- The right operand's column is the result's column. -/
theorem rhs_col (hlb : D.lhsBatch = []) (hln : D.lhsNonContracting = [0]) (hrb : D.rhsBatch = []) (hrn : D.rhsNonContracting = [1])
    (i : (⟨2, ![a, n]⟩ : Shape).Idx) (q : D.contr.Idx) :
    (D.rhsIdx i q 1).val = (i 1).val := by
  unfold DotDims.rhsIdx
  rw [dif_neg (by rw [hrb]; exact List.not_mem_nil), dif_pos (by rw [hrn]; exact List.mem_singleton.mpr rfl)]
  simp only [Fin.val_cast]
  exact coord_congr i _ _ _ _ (by simp [hlb, hln, hrn])

end Cert.LibPlainDot

end
-- ==== Proof.KernelBlocks.lean ====
/-
  What each of the two kernel launches leaves in its result array, as one function of the arrays it is entered with.

  A launch walks 20 blocks of 5000 node rows. At a block the body reads the block's rows of the aggregated features,
  of the neighbour counts and of the nodes' own features, and the two weight matrices and the bias row whole; what it
  stores is the layer (`Cert.SageNet.layer1` / `layer2`) of those blocks. An entry of the layer reads only its own row of
  the per-node operands, so the stored block is the block's rows of the layer of the whole arrays; the 20 blocks tile
  the result array, which therefore ends holding the layer of the whole arrays.
-/
import proofs.«166755_j34772055228551_2_alg».proof.Proof.Gen.KernelIdeal.Frame
import proofs.«166755_j34772055228551_2_alg».proof.Proof.Net
import proofs.«166755_j34772055228551_2_alg».proof.Proof.LibPlainDot
import Idealize.ShloMosaic.Lib.Pipeline.Value

set_option maxRecDepth 16384

noncomputable section

namespace Cert.KernelIdeal.Blocks

open Idealize.ShloMosaic Idealize.ShloMosaic.TcCoe Idealize.SL.Sem Idealize.ShloMosaic.ValueIdx
open Idealize.ShloMosaic.Pipeline (Dat)
open Cert.KernelIdeal Cert.KernelIdeal.Gen Cert.UnitRows Cert.SageNet

theorem hz : (![0, 0] : Fin 2 → Nat) = fun _ => 0 := funext fun a => by fin_cases a <;> rfl

/-! ## The first launch -/

/-- The body's stored block is the first layer of the blocks it loads. -/
theorem body0_eq (x0 : Vec Ideal S5000x64 .f32) (x1 : Vec Ideal S5000x1 .f32) (x2 : Vec Ideal S5000x64 .f32)
    (x3 : Vec Ideal S64x16 .f32) (x4 : Vec Ideal S1x16 .f32) (x5 : Vec Ideal S64x16 .f32) :
    out0_6 (F := Ideal) x0 x1 x2 x3 x4 x5 = layer1 x0 x1 x2 x3 x4 x5 := by
  unfold out0_6
  rw [View.canon_unit_zero hz]
  simp only [View.ld_unit_zero (S := S5000x64) hz, View.ld_unit_zero (S := S5000x1) hz,
    View.ld_unit_zero (S := S64x16) hz, View.ld_unit_zero (S := S1x16) hz]
  unfold k0_pay1
  simp only [shapeCast_self]
  refine (coreRelu_eq (0x00000000#32) _).trans ?_
  refine congrArg (reluArr zero) ?_
  refine (coreUnitRows_eq dot_S5000x64_S64x16_S5000x16_1_0_0_1_n_n (LibPlainDot.contr_rank _ rfl) (LibPlainDot.contr_size _ rfl)
    (LibPlainDot.lhs_row _ rfl rfl) (LibPlainDot.lhs_col _ rfl) (LibPlainDot.rhs_row _ rfl rfl)
    (LibPlainDot.rhs_col _ rfl rfl rfl rfl) broadcasts_S1x16_S5000x16 none reduces_S5000x16_S5000 (.inl rfl) rfl
    shapeCasts_S5000_S5000x1 broadcasts_S5000x1_S5000x16 0x2B8CBCCC#32
    (divf x0 (broadcastTo S5000x64 (maximumf x1 (broadcast S5000x1 (Scalar.ofBits .f32 0x3F800000#32))) broadcasts_S5000x1_S5000x64))
    x2 x3 x5 x4 _ rfl).trans ?_
  unfold sageUnit
  rw [coreMean_eq broadcasts_S5000x1_S5000x64 0x3F800000#32 x0 x1]

/-- The printed index maps over the grid: the per-node windows and the result window sit at block row `t`, the weights and
    the bias row at block 0. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

variable (V : (c : Dev nD) → (b : Ref sig .tc) → Buf (Elt Ideal) ((c : Thread nD τ).loc b))

/-- What point `t` writes back is block `t` of the first layer of the arrays the launch is entered with. -/
theorem flushed0_eq (c : Dev nD) (t : Fin cfg0.N) :
    (dat0 (F := Ideal) V c).flushed 6 t = ((cfg0.win 6).blk t).view.read (Elt Ideal)
      (layer1 (V c main_v13) (V c main_v18) (V c main_arg0) (V c main_v19) (V c main_v21) (V c main_v20)) := by
  show (cfg0.win 6).cut (grid0.coords t) ((dat0 V c).after 6 t) = _
  rw [after0_6, body0_eq]
  obtain ⟨e00, e01, e10, e11, e20, e21, e30, e31, e40, e41, e50, e51, e60, e61⟩ := idx_facts0 t
  funext j
  show layer1 (iblk0 V c 0 t) (iblk0 V c 1 t) (iblk0 V c 2 t) (iblk0 V c 3 t) (iblk0 V c 4 t) (iblk0 V c 5 t) j
    = layer1 (V c main_v13) (V c main_v18) (V c main_arg0) (V c main_v19) (V c main_v21) (V c main_v20)
        (((cfg0.win 6).blk t).view.emb j)
  refine layer1_rows (V c main_v13) (V c main_v18) (V c main_arg0) (V c main_v19) (V c main_v21) (V c main_v20)
    (iblk0 V c 0 t) (iblk0 V c 1 t) (iblk0 V c 2 t) (iblk0 V c 3 t) (iblk0 V c 4 t) (iblk0 V c 5 t) (t.val * 5000)
    (fun y i h0 h1 => ?_) (fun y i h0 h1 => ?_) (fun y i h0 h1 => ?_) (fun i => ?_) (fun i => ?_) (fun i => ?_)
    j (((cfg0.win 6).blk t).view.emb j) ?_ ?_
  · show V c main_v13 (((cfg0.win 0).blk t).view.emb y) = V c main_v13 i
    refine congrArg (V c main_v13) (funext fun a => Fin.ext ?_)
    match a with
    | ⟨0, _⟩ => show win0_0.index t (0 : Fin 2) * 5000 + 1 * (y 0).val = (i 0).val; omega
    | ⟨1, _⟩ => show win0_0.index t (1 : Fin 2) * 64 + 1 * (y 1).val = (i 1).val; omega
  · show V c main_v18 (((cfg0.win 1).blk t).view.emb y) = V c main_v18 i
    refine congrArg (V c main_v18) (funext fun a => Fin.ext ?_)
    match a with
    | ⟨0, _⟩ => show win0_1.index t (0 : Fin 2) * 5000 + 1 * (y 0).val = (i 0).val; omega
    | ⟨1, _⟩ => show win0_1.index t (1 : Fin 2) * 1 + 1 * (y 1).val = (i 1).val; omega
  · show V c main_arg0 (((cfg0.win 2).blk t).view.emb y) = V c main_arg0 i
    refine congrArg (V c main_arg0) (funext fun a => Fin.ext ?_)
    match a with
    | ⟨0, _⟩ => show win0_2.index t (0 : Fin 2) * 5000 + 1 * (y 0).val = (i 0).val; omega
    | ⟨1, _⟩ => show win0_2.index t (1 : Fin 2) * 64 + 1 * (y 1).val = (i 1).val; omega
  · show V c main_v19 (((cfg0.win 3).blk t).view.emb i) = V c main_v19 i
    refine congrArg (V c main_v19) (funext fun a => Fin.ext ?_)
    match a with
    | ⟨0, _⟩ => show win0_3.index t (0 : Fin 2) * 64 + 1 * (i 0).val = (i 0).val; omega
    | ⟨1, _⟩ => show win0_3.index t (1 : Fin 2) * 16 + 1 * (i 1).val = (i 1).val; omega
  · show V c main_v21 (((cfg0.win 4).blk t).view.emb i) = V c main_v21 i
    refine congrArg (V c main_v21) (funext fun a => Fin.ext ?_)
    match a with
    | ⟨0, _⟩ => show win0_4.index t (0 : Fin 2) * 1 + 1 * (i 0).val = (i 0).val; omega
    | ⟨1, _⟩ => show win0_4.index t (1 : Fin 2) * 16 + 1 * (i 1).val = (i 1).val; omega
  · show V c main_v20 (((cfg0.win 5).blk t).view.emb i) = V c main_v20 i
    refine congrArg (V c main_v20) (funext fun a => Fin.ext ?_)
    match a with
    | ⟨0, _⟩ => show win0_5.index t (0 : Fin 2) * 64 + 1 * (i 0).val = (i 0).val; omega
    | ⟨1, _⟩ => show win0_5.index t (1 : Fin 2) * 16 + 1 * (i 1).val = (i 1).val; omega
  · show win0_6.index t (0 : Fin 2) * 5000 + 1 * (j 0).val = t.val * 5000 + (j 0).val; omega
  · show win0_6.index t (1 : Fin 2) * 16 + 1 * (j 1).val = (j 1).val; omega

/-- An index of the result array is in point `t`'s block iff each coordinate is in the block's range on its axis. -/
theorem mem_blk0 (t : Fin cfg0.N) (i : S100000x16.Idx) :
    i ∈ ((cfg0.win 6).blk t).view.set ↔ ∀ a : Fin 2, win0_6.index t a * S5000x16.size a ≤ (i a).val
      ∧ (i a).val < win0_6.index t a * S5000x16.size a + S5000x16.size a := by
  show i ∈ ((View.whole main_v22).slice (win0_6.rect t)).set ↔ _
  rw [View.set_slice_whole, Rect.mem_set_unit]
  exact Iff.rfl

/-- The 20 blocks of 5000 rows tile the result array: row r is in block r / 5000. -/
theorem cover0 (i : S100000x16.Idx) : ∃ t : Fin cfg0.N, (cfg0.win 6).flush t = true ∧ i ∈ ((cfg0.win 6).blk t).view.set := by
  have hN : cfg0.N = 20 := N_0
  have hi0 : (i 0).val < 100000 := (i 0).isLt
  have hi1 : (i 1).val < 16 := (i 1).isLt
  have hq : (i 0).val / 5000 < cfg0.N := by rw [hN]; omega
  obtain ⟨e00, e01, e10, e11, e20, e21, e30, e31, e40, e41, e50, e51, e60, e61⟩ := idx_facts0 ⟨(i 0).val / 5000, hq⟩
  refine ⟨⟨(i 0).val / 5000, hq⟩, flush0_6 _, ?_⟩
  rw [mem_blk0]
  intro a
  match a with
  | ⟨0, _⟩ =>
    show win0_6.index ⟨(i 0).val / 5000, hq⟩ (0 : Fin 2) * 5000 ≤ (i 0).val
      ∧ (i 0).val < win0_6.index ⟨(i 0).val / 5000, hq⟩ (0 : Fin 2) * 5000 + 5000
    rw [e60]
    show (i 0).val / 5000 * 5000 ≤ (i 0).val ∧ (i 0).val < (i 0).val / 5000 * 5000 + 5000
    omega
  | ⟨1, _⟩ =>
    show win0_6.index ⟨(i 0).val / 5000, hq⟩ (1 : Fin 2) * 16 ≤ (i 1).val
      ∧ (i 1).val < win0_6.index ⟨(i 0).val / 5000, hq⟩ (1 : Fin 2) * 16 + 16
    rw [e61]
    omega

/-- After the first launch its result array holds the first layer of the arrays the launch was entered with. -/
theorem final0 (c : Dev nD) : (dat0 (F := Ideal) V c).arrAt 6 cfg0.N
    = layer1 (V c main_v13) (V c main_v18) (V c main_arg0) (V c main_v19) (V c main_v21) (V c main_v20) :=
  (dat0 V c).arrAt_eq_of_cover 6 _ (fun t _ => flushed0_eq V c t) cover0

/-! ## The second launch -/

/-- The body's stored block is the second layer of the blocks it loads. -/
theorem body1_eq (x0 : Vec Ideal S5000x16 .f32) (x1 : Vec Ideal S5000x1 .f32) (x2 : Vec Ideal S5000x16 .f32)
    (x3 : Vec Ideal S16x32 .f32) (x4 : Vec Ideal S1x32 .f32) (x5 : Vec Ideal S16x32 .f32) :
    out1_6 (F := Ideal) x0 x1 x2 x3 x4 x5 = layer2 x0 x1 x2 x3 x4 x5 := by
  unfold out1_6
  rw [View.canon_unit_zero hz]
  simp only [View.ld_unit_zero (S := S5000x16) hz, View.ld_unit_zero (S := S5000x1) hz,
    View.ld_unit_zero (S := S16x32) hz, View.ld_unit_zero (S := S1x32) hz]
  unfold k1_pay1
  simp only [shapeCast_self]
  refine (coreUnitRows_eq dot_S5000x16_S16x32_S5000x32_1_0_0_1_n_n (LibPlainDot.contr_rank _ rfl) (LibPlainDot.contr_size _ rfl)
    (LibPlainDot.lhs_row _ rfl rfl) (LibPlainDot.lhs_col _ rfl) (LibPlainDot.rhs_row _ rfl rfl)
    (LibPlainDot.rhs_col _ rfl rfl rfl rfl) broadcasts_S1x32_S5000x32 none reduces_S5000x32_S5000 (.inl rfl) rfl
    shapeCasts_S5000_S5000x1 broadcasts_S5000x1_S5000x32 0x2B8CBCCC#32
    (divf x0 (broadcastTo S5000x16 (maximumf x1 (broadcast S5000x1 (Scalar.ofBits .f32 0x3F800000#32))) broadcasts_S5000x1_S5000x16))
    x2 x3 x5 x4 _ rfl).trans ?_
  unfold layer2 sageUnit
  rw [coreMean_eq broadcasts_S5000x1_S5000x16 0x3F800000#32 x0 x1]

/-- The printed index maps over the grid: the per-node windows and the result window sit at block row `t`, the weights and
    the bias row at block 0. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- What point `t` writes back is block `t` of the second layer of the arrays the launch is entered with. -/
theorem flushed1_eq (c : Dev nD) (t : Fin cfg1.N) :
    (dat1 (F := Ideal) V c).flushed 6 t = ((cfg1.win 6).blk t).view.read (Elt Ideal)
      (layer2 (V c main_v32) (V c main_v37) (V c main_v22) (V c main_v38) (V c main_v40) (V c main_v39)) := by
  show (cfg1.win 6).cut (grid1.coords t) ((dat1 V c).after 6 t) = _
  rw [after1_6, body1_eq]
  obtain ⟨e00, e01, e10, e11, e20, e21, e30, e31, e40, e41, e50, e51, e60, e61⟩ := idx_facts1 t
  funext j
  show layer2 (iblk1 V c 0 t) (iblk1 V c 1 t) (iblk1 V c 2 t) (iblk1 V c 3 t) (iblk1 V c 4 t) (iblk1 V c 5 t) j
    = layer2 (V c main_v32) (V c main_v37) (V c main_v22) (V c main_v38) (V c main_v40) (V c main_v39)
        (((cfg1.win 6).blk t).view.emb j)
  refine layer2_rows (V c main_v32) (V c main_v37) (V c main_v22) (V c main_v38) (V c main_v40) (V c main_v39)
    (iblk1 V c 0 t) (iblk1 V c 1 t) (iblk1 V c 2 t) (iblk1 V c 3 t) (iblk1 V c 4 t) (iblk1 V c 5 t) (t.val * 5000)
    (fun y i h0 h1 => ?_) (fun y i h0 h1 => ?_) (fun y i h0 h1 => ?_) (fun i => ?_) (fun i => ?_) (fun i => ?_)
    j (((cfg1.win 6).blk t).view.emb j) ?_ ?_
  · show V c main_v32 (((cfg1.win 0).blk t).view.emb y) = V c main_v32 i
    refine congrArg (V c main_v32) (funext fun a => Fin.ext ?_)
    match a with
    | ⟨0, _⟩ => show win1_0.index t (0 : Fin 2) * 5000 + 1 * (y 0).val = (i 0).val; omega
    | ⟨1, _⟩ => show win1_0.index t (1 : Fin 2) * 16 + 1 * (y 1).val = (i 1).val; omega
  · show V c main_v37 (((cfg1.win 1).blk t).view.emb y) = V c main_v37 i
    refine congrArg (V c main_v37) (funext fun a => Fin.ext ?_)
    match a with
    | ⟨0, _⟩ => show win1_1.index t (0 : Fin 2) * 5000 + 1 * (y 0).val = (i 0).val; omega
    | ⟨1, _⟩ => show win1_1.index t (1 : Fin 2) * 1 + 1 * (y 1).val = (i 1).val; omega
  · show V c main_v22 (((cfg1.win 2).blk t).view.emb y) = V c main_v22 i
    refine congrArg (V c main_v22) (funext fun a => Fin.ext ?_)
    match a with
    | ⟨0, _⟩ => show win1_2.index t (0 : Fin 2) * 5000 + 1 * (y 0).val = (i 0).val; omega
    | ⟨1, _⟩ => show win1_2.index t (1 : Fin 2) * 16 + 1 * (y 1).val = (i 1).val; omega
  · show V c main_v38 (((cfg1.win 3).blk t).view.emb i) = V c main_v38 i
    refine congrArg (V c main_v38) (funext fun a => Fin.ext ?_)
    match a with
    | ⟨0, _⟩ => show win1_3.index t (0 : Fin 2) * 16 + 1 * (i 0).val = (i 0).val; omega
    | ⟨1, _⟩ => show win1_3.index t (1 : Fin 2) * 32 + 1 * (i 1).val = (i 1).val; omega
  · show V c main_v40 (((cfg1.win 4).blk t).view.emb i) = V c main_v40 i
    refine congrArg (V c main_v40) (funext fun a => Fin.ext ?_)
    match a with
    | ⟨0, _⟩ => show win1_4.index t (0 : Fin 2) * 1 + 1 * (i 0).val = (i 0).val; omega
    | ⟨1, _⟩ => show win1_4.index t (1 : Fin 2) * 32 + 1 * (i 1).val = (i 1).val; omega
  · show V c main_v39 (((cfg1.win 5).blk t).view.emb i) = V c main_v39 i
    refine congrArg (V c main_v39) (funext fun a => Fin.ext ?_)
    match a with
    | ⟨0, _⟩ => show win1_5.index t (0 : Fin 2) * 16 + 1 * (i 0).val = (i 0).val; omega
    | ⟨1, _⟩ => show win1_5.index t (1 : Fin 2) * 32 + 1 * (i 1).val = (i 1).val; omega
  · show win1_6.index t (0 : Fin 2) * 5000 + 1 * (j 0).val = t.val * 5000 + (j 0).val; omega
  · show win1_6.index t (1 : Fin 2) * 32 + 1 * (j 1).val = (j 1).val; omega

/-- An index of the result array is in point `t`'s block iff each coordinate is in the block's range on its axis. -/
theorem mem_blk1 (t : Fin cfg1.N) (i : S100000x32.Idx) :
    i ∈ ((cfg1.win 6).blk t).view.set ↔ ∀ a : Fin 2, win1_6.index t a * S5000x32.size a ≤ (i a).val
      ∧ (i a).val < win1_6.index t a * S5000x32.size a + S5000x32.size a := by
  show i ∈ ((View.whole main_v41).slice (win1_6.rect t)).set ↔ _
  rw [View.set_slice_whole, Rect.mem_set_unit]
  exact Iff.rfl

/-- The 20 blocks of 5000 rows tile the result array: row r is in block r / 5000. -/
theorem cover1 (i : S100000x32.Idx) : ∃ t : Fin cfg1.N, (cfg1.win 6).flush t = true ∧ i ∈ ((cfg1.win 6).blk t).view.set := by
  have hN : cfg1.N = 20 := N_1
  have hi0 : (i 0).val < 100000 := (i 0).isLt
  have hi1 : (i 1).val < 32 := (i 1).isLt
  have hq : (i 0).val / 5000 < cfg1.N := by rw [hN]; omega
  obtain ⟨e00, e01, e10, e11, e20, e21, e30, e31, e40, e41, e50, e51, e60, e61⟩ := idx_facts1 ⟨(i 0).val / 5000, hq⟩
  refine ⟨⟨(i 0).val / 5000, hq⟩, flush1_6 _, ?_⟩
  rw [mem_blk1]
  intro a
  match a with
  | ⟨0, _⟩ =>
    show win1_6.index ⟨(i 0).val / 5000, hq⟩ (0 : Fin 2) * 5000 ≤ (i 0).val
      ∧ (i 0).val < win1_6.index ⟨(i 0).val / 5000, hq⟩ (0 : Fin 2) * 5000 + 5000
    rw [e60]
    show (i 0).val / 5000 * 5000 ≤ (i 0).val ∧ (i 0).val < (i 0).val / 5000 * 5000 + 5000
    omega
  | ⟨1, _⟩ =>
    show win1_6.index ⟨(i 0).val / 5000, hq⟩ (1 : Fin 2) * 32 ≤ (i 1).val
      ∧ (i 1).val < win1_6.index ⟨(i 0).val / 5000, hq⟩ (1 : Fin 2) * 32 + 32
    rw [e61]
    omega

/-- After the second launch its result array holds the second layer of the arrays the launch was entered with. -/
theorem final1 (c : Dev nD) : (dat1 (F := Ideal) V c).arrAt 6 cfg1.N
    = layer2 (V c main_v32) (V c main_v37) (V c main_v22) (V c main_v38) (V c main_v40) (V c main_v39) :=
  (dat1 V c).arrAt_eq_of_cover 6 _ (fun t _ => flushed1_eq V c t) cover1

end Cert.KernelIdeal.Blocks

end
-- ==== Proof.RefValue.lean ====
/-
  The reference's result as the two layers of `Cert.SageNet`.

  The reference computes each layer over whole arrays: the neighbour sums by a gather and a scatter-add, the counts by a
  scatter-add of ones, the count vector compared with 1 before it is made a column and laid along the rows, the two
  products and the bias row, the row lengths by a sum of squares over axis 1, the quotient, and after the first layer
  the maximum with zero. Read entry by entry these are the expressions of `layer1` and `layer2`; the gather and the
  scatter-adds are not opened: the first layer's feed the layers as they are, and the second layer's neighbour sums
  are kept as a function `agg2` of the first layer's result.
-/
import proofs.«166755_j34772055228551_2_alg».proof.Proof.Gen.ReferenceIdeal.Read
import proofs.«166755_j34772055228551_2_alg».proof.Proof.Net
import proofs.«166755_j34772055228551_2_alg».proof.Proof.LibPlainDot

noncomputable section

namespace Cert.ReferenceIdeal.RefValue

open Idealize.ShloMosaic Idealize.ShloMosaic.TcCoe Idealize.ShloMosaic.ValueIdx
open Cert.ReferenceIdeal Cert.ReferenceIdeal.Gen Cert.ReferenceIdeal.Read Cert.UnitRows Cert.SageNet

/-- A vector of one number per node as a column. -/
abbrev col (v : FVec Ideal S100000 .f32) : FVec Ideal S100000x1 .f32 :=
  broadcastInDim S100000x1 ![0] bcast_S100000_S100000x1_0 v

/-- The second layer's neighbour sums of a feature array `hf`: its rows gathered at the edges' sources and added up at
    the edges' targets (the edge list `x1` enters through the reference's own index stages). -/
def agg2 (hf : FVec Ideal S100000x16 .f32) (x1 : IVec S2x1600000 32) : FVec Ideal S100000x16 .f32 :=
  Host.scatterAdd (F := Ideal) scatter_S100000x16_S1600000x1_S1600000x16_1_0_0_1 (val_main_v44 (F := Ideal)) (val_main_v45 (F := Ideal) x1)
    (Host.gather gather_S100000x16_S1600000x1_S1600000x16_1_0_n_n_0_1_116 hf (val_main_v42 (F := Ideal) x1))

/-- The reference's second neighbour sums are `agg2` of its first layer's result. -/
theorem val_main_v46_eq (x0 : FVec Ideal S100000x64 .f32) (x1 : IVec S2x1600000 32) (x2 : FVec Ideal S16x64 .f32) (x3 : FVec Ideal S16 .f32) (x4 : FVec Ideal S16x64 .f32) :
    val_main_v46 (F := Ideal) x0 x1 x2 x3 x4 = agg2 (val_main_v36 (F := Ideal) x0 x1 x2 x3 x4) x1 := by
  unfold val_main_v46 val_main_v43 agg2
  rfl

/-- The reference's first layer, rectifier included, is `layer1` of the first neighbour sums and counts. -/
theorem ref_layer1 (x0 : FVec Ideal S100000x64 .f32) (x1 : IVec S2x1600000 32) (x2 : FVec Ideal S16x64 .f32) (x3 : FVec Ideal S16 .f32) (x4 : FVec Ideal S16x64 .f32) :
    val_main_v36 (F := Ideal) x0 x1 x2 x3 x4
      = layer1 (val_main_v13 (F := Ideal) x0 x1) (col (val_main_v17 (F := Ideal) x1)) x0
          (val_main_v23 (F := Ideal) x2) (val_main_v25 (F := Ideal) x3) (val_main_v28 (F := Ideal) x4) := by
  unfold val_main_v36 val_main_call1_v0 val_main_call1_cst val_main_v35 val_main_v34 val_main_v33 val_main_v32 val_main_cst_4
    val_main_v31 val_main_call0_v2 val_main_call0_v1 val_main_call0_cst val_main_call0_v0 layer1 sageUnit
  rw [hostRelu_eq]
  refine congrArg (reluArr zero) ?_
  refine hostUnitRows_eq dot_S100000x64_S64x16_S100000x16_1_0_0_1_n_n (LibPlainDot.contr_rank _ rfl) (LibPlainDot.contr_size _ rfl)
    (LibPlainDot.lhs_row _ rfl rfl) (LibPlainDot.lhs_col _ rfl) (LibPlainDot.rhs_row _ rfl rfl)
    (LibPlainDot.rhs_col _ rfl rfl rfl rfl) bcast_S1x16_S100000x16_0_1 reducesTo_S100000x16_S100000_d1 (by decide) h_S_
    bcast_S100000_S100000x1_0 bcast_S_S100000x1 bcast_S100000x1_S100000x16_0_1 0x2B8CBCCC#32 none _ x0 _ _ _
    (val_main_v30 (F := Ideal) x0 x1 x2 x3 x4) ?_
  unfold val_main_v30 val_main_v29 val_main_v27 val_main_v26 val_main_v24 val_main_v22 val_main_v21 val_main_v20 val_main_v19
    val_main_v18 val_main_cst_3
  rw [hostMean_eq]

/-- The reference's second layer is `layer2` of the second neighbour sums and counts and the first layer's result. -/
theorem ref_layer2 (x0 : FVec Ideal S100000x64 .f32) (x1 : IVec S2x1600000 32) (x2 : FVec Ideal S16x64 .f32) (x3 : FVec Ideal S16 .f32) (x4 : FVec Ideal S16x64 .f32) (x5 : FVec Ideal S32x16 .f32) (x6 : FVec Ideal S32 .f32) (x7 : FVec Ideal S32x16 .f32) :
    val_main_v68 (F := Ideal) x0 x1 x2 x3 x4 x5 x6 x7
      = layer2 (val_main_v46 (F := Ideal) x0 x1 x2 x3 x4) (col (val_main_v50 (F := Ideal) x1))
          (val_main_v36 (F := Ideal) x0 x1 x2 x3 x4)
          (val_main_v56 (F := Ideal) x5) (val_main_v58 (F := Ideal) x6) (val_main_v61 (F := Ideal) x7) := by
  unfold val_main_v68 val_main_v67 val_main_v66 val_main_v65 val_main_cst_11
    val_main_v64 val_main_call2_v2 val_main_call2_v1 val_main_call2_cst val_main_call2_v0 layer2 sageUnit
  refine hostUnitRows_eq dot_S100000x16_S16x32_S100000x32_1_0_0_1_n_n (LibPlainDot.contr_rank _ rfl) (LibPlainDot.contr_size _ rfl)
    (LibPlainDot.lhs_row _ rfl rfl) (LibPlainDot.lhs_col _ rfl) (LibPlainDot.rhs_row _ rfl rfl)
    (LibPlainDot.rhs_col _ rfl rfl rfl rfl) bcast_S1x32_S100000x32_0_1 reducesTo_S100000x32_S100000_d1 (by decide) h_S_
    bcast_S100000_S100000x1_0 bcast_S_S100000x1 bcast_S100000x1_S100000x32_0_1 0x2B8CBCCC#32 none _
    (val_main_v36 (F := Ideal) x0 x1 x2 x3 x4) _ _ _
    (val_main_v63 (F := Ideal) x0 x1 x2 x3 x4 x5 x6 x7) ?_
  unfold val_main_v63 val_main_v62 val_main_v60 val_main_v59 val_main_v57 val_main_v55 val_main_v54 val_main_v53 val_main_v52
    val_main_v51 val_main_cst_10
  rw [hostMean_eq]

/-- The whole network as one function of the eight arguments: the second layer of the neighbour sums of the first. -/
def net (x0 : FVec Ideal S100000x64 .f32) (x1 : IVec S2x1600000 32) (x2 : FVec Ideal S16x64 .f32) (x3 : FVec Ideal S16 .f32) (x4 : FVec Ideal S16x64 .f32) (x5 : FVec Ideal S32x16 .f32) (x6 : FVec Ideal S32 .f32) (x7 : FVec Ideal S32x16 .f32) : FVec Ideal S100000x32 .f32 :=
  layer2
    (agg2 (layer1 (val_main_v13 (F := Ideal) x0 x1) (col (val_main_v17 (F := Ideal) x1)) x0
      (val_main_v23 (F := Ideal) x2) (val_main_v25 (F := Ideal) x3) (val_main_v28 (F := Ideal) x4)) x1)
    (col (val_main_v50 (F := Ideal) x1))
    (layer1 (val_main_v13 (F := Ideal) x0 x1) (col (val_main_v17 (F := Ideal) x1)) x0
      (val_main_v23 (F := Ideal) x2) (val_main_v25 (F := Ideal) x3) (val_main_v28 (F := Ideal) x4))
    (val_main_v56 (F := Ideal) x5) (val_main_v58 (F := Ideal) x6) (val_main_v61 (F := Ideal) x7)

/-- The reference's result is `net` of its arguments. -/
theorem ref_net (x0 : FVec Ideal S100000x64 .f32) (x1 : IVec S2x1600000 32) (x2 : FVec Ideal S16x64 .f32) (x3 : FVec Ideal S16 .f32) (x4 : FVec Ideal S16x64 .f32) (x5 : FVec Ideal S32x16 .f32) (x6 : FVec Ideal S32 .f32) (x7 : FVec Ideal S32x16 .f32) : val_main_v68 (F := Ideal) x0 x1 x2 x3 x4 x5 x6 x7 = net x0 x1 x2 x3 x4 x5 x6 x7 := by
  rw [ref_layer2, val_main_v46_eq, ref_layer1]
  rfl

end Cert.ReferenceIdeal.RefValue

end
-- ==== Proof.KernelValue.lean ====
/-
  The kernel program's result as one function of its eight arguments.

  The fold of the buffer contents through the program is opened stretch by stretch. The host operations before the
  first launch leave the first neighbour sums and counts, the transposed weights and the bias row; the first launch
  leaves the first layer of these (`Blocks.final0`); the host operations after it leave the neighbour sums of that
  layer (gathered and scattered along the same edge list), the counts again, the second transposed weights and
  bias row; the second launch leaves the second layer (`Blocks.final1`). The host stretches are the reference's own
  operations on the same operands, so each stage is stated by the reference's stage of the same name; the one spelling
  difference is the bias row, a reshape here and a broadcast along axis 1 there, which are the same array.
-/
import proofs.«166755_j34772055228551_2_alg».proof.Proof.KernelBlocks
import proofs.«166755_j34772055228551_2_alg».proof.Proof.RefValue
import Idealize.ShloMosaic.Lib.StableHlo.Run

set_option maxRecDepth 16384

noncomputable section

namespace Cert.KernelIdeal.NetValue

open Idealize.ShloMosaic Idealize.ShloMosaic.TcCoe Idealize.SL.Sem Idealize.ShloMosaic.StableHlo
open Cert.KernelIdeal Cert.KernelIdeal.Gen Cert.KernelIdeal.Blocks Cert.SageNet
open Cert.ReferenceIdeal.Read Cert.ReferenceIdeal.RefValue

variable (m : (ℓ : Loc nD τ sig) → Buf (Elt Ideal) ℓ) (ρ : Dev nD → PrngReg)

/-! ## Before the first launch -/

theorem V1_v13 (c : Dev nD) : V1 m ρ c main_v13
    = val_main_v13 (F := Ideal) (m ((c : Thread nD τ).loc main_arg0)) (m ((c : Thread nD τ).loc main_arg1)) := by
  show StableHlo.after hostOps0 (W0 m ρ c) (Proc.devRef .tc main_v13) = _
  after_results_simp <;> rfl

theorem V1_v18 (c : Dev nD) : V1 m ρ c main_v18 = col (val_main_v17 (F := Ideal) (m ((c : Thread nD τ).loc main_arg1))) := by
  show StableHlo.after hostOps0 (W0 m ρ c) (Proc.devRef .tc main_v18) = _
  after_results_simp <;> rfl

theorem V1_arg0 (c : Dev nD) : V1 m ρ c main_arg0 = m ((c : Thread nD τ).loc main_arg0) := by
  show StableHlo.after hostOps0 (W0 m ρ c) (Proc.devRef .tc main_arg0) = _
  after_results_simp <;> rfl

theorem V1_v19 (c : Dev nD) : V1 m ρ c main_v19 = val_main_v23 (F := Ideal) (m ((c : Thread nD τ).loc main_arg2)) := by
  show StableHlo.after hostOps0 (W0 m ρ c) (Proc.devRef .tc main_v19) = _
  after_results_simp <;> rfl

theorem V1_v20 (c : Dev nD) : V1 m ρ c main_v20 = val_main_v28 (F := Ideal) (m ((c : Thread nD τ).loc main_arg4)) := by
  show StableHlo.after hostOps0 (W0 m ρ c) (Proc.devRef .tc main_v20) = _
  after_results_simp <;> rfl

/-- The bias row: the kernel program reshapes the bias vector, the reference broadcasts it along axis 1. -/
theorem V1_v21 (c : Dev nD) : V1 m ρ c main_v21 = val_main_v25 (F := Ideal) (m ((c : Thread nD τ).loc main_arg3)) := by
  show StableHlo.after hostOps0 (W0 m ρ c) (Proc.devRef .tc main_v21) = _
  after_results_simp
  exact LibColumnRow.shapeCast_row_eq_broadcastInDim _ _ _

/-! ## Between the launches -/

theorem W2_v1 (c : Dev nD) : W2 m ρ c (Proc.devRef .tc main_v1) = val_main_v1 (F := Ideal) (m ((c : Thread nD τ).loc main_arg1)) :=
  (W2_of_ne m ρ c main_v1 (by decide)).trans (by
    show StableHlo.after hostOps0 (W0 m ρ c) (Proc.devRef .tc main_v1) = _
    after_results_simp <;> rfl)

theorem W2_v3 (c : Dev nD) : W2 m ρ c (Proc.devRef .tc main_v3) = val_main_v3 (F := Ideal) (m ((c : Thread nD τ).loc main_arg1)) :=
  (W2_of_ne m ρ c main_v3 (by decide)).trans (by
    show StableHlo.after hostOps0 (W0 m ρ c) (Proc.devRef .tc main_v3) = _
    after_results_simp <;> rfl)

theorem W2_arg5 (c : Dev nD) : W2 m ρ c (Proc.devRef .tc main_arg5) = m ((c : Thread nD τ).loc main_arg5) :=
  (W2_of_ne m ρ c main_arg5 (by decide)).trans (by
    show StableHlo.after hostOps0 (W0 m ρ c) (Proc.devRef .tc main_arg5) = _
    after_results_simp <;> rfl)

theorem W2_arg6 (c : Dev nD) : W2 m ρ c (Proc.devRef .tc main_arg6) = m ((c : Thread nD τ).loc main_arg6) :=
  (W2_of_ne m ρ c main_arg6 (by decide)).trans (by
    show StableHlo.after hostOps0 (W0 m ρ c) (Proc.devRef .tc main_arg6) = _
    after_results_simp <;> rfl)

theorem W2_arg7 (c : Dev nD) : W2 m ρ c (Proc.devRef .tc main_arg7) = m ((c : Thread nD τ).loc main_arg7) :=
  (W2_of_ne m ρ c main_arg7 (by decide)).trans (by
    show StableHlo.after hostOps0 (W0 m ρ c) (Proc.devRef .tc main_arg7) = _
    after_results_simp <;> rfl)

/-- The first launch's result array: the first layer of the first neighbour sums and counts. -/
theorem W2_v22 (c : Dev nD) : W2 m ρ c (Proc.devRef .tc main_v22)
    = layer1 (val_main_v13 (F := Ideal) (m ((c : Thread nD τ).loc main_arg0)) (m ((c : Thread nD τ).loc main_arg1)))
        (col (val_main_v17 (F := Ideal) (m ((c : Thread nD τ).loc main_arg1)))) (m ((c : Thread nD τ).loc main_arg0))
        (val_main_v23 (F := Ideal) (m ((c : Thread nD τ).loc main_arg2))) (val_main_v25 (F := Ideal) (m ((c : Thread nD τ).loc main_arg3)))
        (val_main_v28 (F := Ideal) (m ((c : Thread nD τ).loc main_arg4))) := by
  refine (W2_arr m ρ c 6).trans ((final0 (V1 m ρ) c).trans ?_)
  rw [V1_v13 m ρ c, V1_v18 m ρ c, V1_arg0 m ρ c, V1_v19 m ρ c, V1_v21 m ρ c, V1_v20 m ρ c]

/-! ## Before the second launch -/

theorem V3_v22 (c : Dev nD) : V3 m ρ c main_v22 = W2 m ρ c (Proc.devRef .tc main_v22) := by
  show StableHlo.after hostOps1 (W2 m ρ c) (Proc.devRef .tc main_v22) = _
  after_results_simp <;> rfl

/-- The second neighbour sums: the reference's `agg2` of the first launch's result array. -/
theorem V3_v32 (c : Dev nD) : V3 m ρ c main_v32
    = agg2 (W2 m ρ c (Proc.devRef .tc main_v22)) (m ((c : Thread nD τ).loc main_arg1)) := by
  show StableHlo.after hostOps1 (W2 m ρ c) (Proc.devRef .tc main_v32) = _
  after_results_simp
  rw [W2_v1 m ρ c, W2_v3 m ρ c]
  rfl

theorem V3_v37 (c : Dev nD) : V3 m ρ c main_v37 = col (val_main_v50 (F := Ideal) (m ((c : Thread nD τ).loc main_arg1))) := by
  show StableHlo.after hostOps1 (W2 m ρ c) (Proc.devRef .tc main_v37) = _
  after_results_simp
  rw [W2_v3 m ρ c]
  rfl

theorem V3_v38 (c : Dev nD) : V3 m ρ c main_v38 = val_main_v56 (F := Ideal) (m ((c : Thread nD τ).loc main_arg5)) := by
  show StableHlo.after hostOps1 (W2 m ρ c) (Proc.devRef .tc main_v38) = _
  after_results_simp
  rw [W2_arg5 m ρ c]
  rfl

theorem V3_v39 (c : Dev nD) : V3 m ρ c main_v39 = val_main_v61 (F := Ideal) (m ((c : Thread nD τ).loc main_arg7)) := by
  show StableHlo.after hostOps1 (W2 m ρ c) (Proc.devRef .tc main_v39) = _
  after_results_simp
  rw [W2_arg7 m ρ c]
  rfl

theorem V3_v40 (c : Dev nD) : V3 m ρ c main_v40 = val_main_v58 (F := Ideal) (m ((c : Thread nD τ).loc main_arg6)) := by
  show StableHlo.after hostOps1 (W2 m ρ c) (Proc.devRef .tc main_v40) = _
  after_results_simp
  rw [W2_arg6 m ρ c]
  exact LibColumnRow.shapeCast_row_eq_broadcastInDim _ _ _

/-! ## The result -/

/-- After the run the result array holds `net` of the launch contents of the eight arguments. -/
theorem result_eq (c : Dev nD) : W4 m ρ c (Proc.devRef .tc main_v41)
    = net (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  refine (W4_arr m ρ c 6).trans ((final1 (V3 m ρ) c).trans ?_)
  rw [V3_v32 m ρ c, V3_v37 m ρ c, V3_v22 m ρ c, V3_v38 m ρ c, V3_v40 m ρ c, V3_v39 m ρ c, W2_v22 m ρ c]
  rfl

end Cert.KernelIdeal.NetValue

end
-- ==== Proof.lean ====
/-
  Two layers of a mean-aggregation graph network with unit-length rows: the kernel program against its reference, on
  the extended reals.

  Both programs gather each edge's source row, add the rows up at the edge's target and count the edges per target, with
  the same host operations. One layer then divides a node's neighbour sum by max(count, 1), takes
  y = mean · wlᵀ + b + h · wrᵀ, and divides every row of y by max(‖row‖, ε); the first layer ends with max(·, 0). The
  kernel program computes a layer in 20 blocks of 5000 node rows, one launch per layer, the count compared with 1 after
  it became a column; the reference computes it over whole arrays. Entry (p, j) of a layer reads only row p of the
  per-node operands, so a block of rows of the layer is the layer of the block of rows, and the blocks tile the result:
  each launch leaves the layer of the whole arrays (`Blocks.final0`, `Blocks.final1`). Entry by entry the two programs
  evaluate the same expression — no law of arithmetic beyond reading each operation at an index is used, and the
  precondition is never opened. The second layer's neighbour sums are the same function (`RefValue.agg2`) of the first
  layer's result on both sides, so the two results are one function `RefValue.net` of the eight arguments.

  The frames of the two kernel programs are the generated ones; the reference's is its generated run with the result
  dropped; the idealization rewrote nothing, so `preserves` is trivial.
-/
import proofs.«166755_j34772055228551_2_alg».proof.Defs
import proofs.«166755_j34772055228551_2_alg».proof.Proof.Gen.Kernel
import proofs.«166755_j34772055228551_2_alg».proof.Proof.Gen.Kernel.Skeleton
import proofs.«166755_j34772055228551_2_alg».proof.Proof.Gen.Kernel.Launch
import proofs.«166755_j34772055228551_2_alg».proof.Proof.Gen.Kernel.Points
import proofs.«166755_j34772055228551_2_alg».proof.Proof.Gen.Kernel.Frame
import proofs.«166755_j34772055228551_2_alg».proof.Proof.Gen.KernelIdeal
import proofs.«166755_j34772055228551_2_alg».proof.Proof.Gen.KernelIdeal.Skeleton
import proofs.«166755_j34772055228551_2_alg».proof.Proof.Gen.KernelIdeal.Launch
import proofs.«166755_j34772055228551_2_alg».proof.Proof.Gen.KernelIdeal.Points
import proofs.«166755_j34772055228551_2_alg».proof.Proof.Gen.KernelIdeal.Frame
import proofs.«166755_j34772055228551_2_alg».proof.Proof.Gen.ReferenceIdeal
import proofs.«166755_j34772055228551_2_alg».proof.Proof.Gen.ReferenceIdeal.Run
import proofs.«166755_j34772055228551_2_alg».proof.Proof.Gen.ReferenceIdeal.Read
import proofs.«166755_j34772055228551_2_alg».proof.Proof.Gen.Pre_finite_inputs
import proofs.«166755_j34772055228551_2_alg».proof.Proof.KernelLaunch
import proofs.«166755_j34772055228551_2_alg».proof.Proof.KernelValue
import proofs.«166755_j34772055228551_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end with the result array at `net` of the arguments' launch contents, which agree. -/
theorem algebraic : Cert.algebraic_KernelIdeal_ReferenceIdeal := by
  intro m ρ m' ρ' _ hagree
  refine ⟨fun c => Cert.ReferenceIdeal.RefValue.net
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.NetValue.result_eq m ρ c), (h c).2⟩)
      (Cert.KernelIdeal.Launched.run_named (F := Ideal) m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7⟩ := hagree c
    rw [Cert.ReferenceIdeal.Read.val_main_v68_eq, Cert.ReferenceIdeal.RefValue.ref_net, a0, a1, a2, a3, a4, a5, a6, a7]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
